-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S1x64 : Shape := ⟨2, ![1, 64]⟩
abbrev S10000x128 : Shape := ⟨2, ![10000, 128]⟩
abbrev S10000x1 : Shape := ⟨2, ![10000, 1]⟩
abbrev S1700000x128 : Shape := ⟨2, ![1700000, 128]⟩
abbrev S100000x64 : Shape := ⟨2, ![100000, 64]⟩
abbrev S10000x64 : Shape := ⟨2, ![10000, 64]⟩
abbrev S1700000x64 : Shape := ⟨2, ![1700000, 64]⟩

abbrev nBuf : Space → Nat
  | .hbm => 60
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x64, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S100000x128, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run, with its result named.

  Every weakly fair execution of the program — three stretches of host operations, the first projection region, a stretch
  of host operations, the first aggregation region and the second projection region, a stretch of host operations, the
  second aggregation region — terminates without a fault; the result buffer then holds what the fold of the buffer
  contents through those nine segments leaves there, and the six argument arrays are as launched.
-/
import proofs.«171091_j3650722202372_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the nine segments: the result buffer ends at the last boundary's contents, the arguments as launched. -/
theorem run_values : θ_run defs (onTc (τ := τ) (main (F := F))) ⟨m, fun _ => 0, ρ⟩ (fun r => ∀ c : Dev nD,
      r.2.mem ((c.tc : Thread nD τ).loc main_v41) = W9 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v41 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Fold

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.BodyEntries.lean ====
/-
  The four kernel bodies, read at one entry.

  A projection body multiplies a block of 10000 rows of its left operand by the whole weight matrix — the operands are
  first recast to a narrower float format, which on the extended reals changes nothing, and the product accumulates into
  zero — and then scales row p of the product by the p-th entry of a column of per-row factors:
      entry (p, c) = (∑ₖ a(p, k) · w(k, c)) · d(p).
  An aggregation body scales row p of its block by the same column's entry, adds a row vector of biases, and in the
  first layer rectifies the sum:
      entry (p, c) = max (s(p, c) · d(p) + b(c)) 0      (first layer),        s(p, c) · d(p) + b(c)      (second layer).
-/
import proofs.«171091_j3650722202372_2_alg».proof.Proof.Gen.KernelIdeal.Skeleton
import proofs.«171091_j3650722202372_2_alg».proof.Proof.LibPlainDot
import proofs.«171091_j3650722202372_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Entries

open Cert.KernelIdeal Cert.KernelIdeal.Gen Idealize.ShloMosaic Idealize.ShloMosaic.ValueIdx

/-! ## The two products' dimension numbers: operand coordinates at an output entry and a contraction position -/

theorem dotA_l0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem dotA_l1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem dotA_r0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem dotA_r1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

theorem dotB_l0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem dotB_l1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem dotB_r0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem dotB_r1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-! ## The bodies at an entry -/

/-- The first layer's projection body at entry (p, c): row p of the block times column c of the weights, scaled by the
    p-th factor. -/
theorem proj1_entry (x0 : Vec Ideal S10000x128 .f32) (x1 : Vec Ideal S128x128 .f32) (x2 : Vec Ideal S10000x1 .f32)
    (p : Fin 10000) (c : Fin 128) :
    k0_pay1 x0 x1 x2 (ix2 p c) = (∑ k : Fin 128, x0 (ix2 p k) * x1 (ix2 k c)) * x2 (ix2 p (0 : Fin 1)) := by
  unfold k0_pay1
  rw [shapeCast_self]
  refine (mulf_apply _ _ (ix2 p c)).trans ?_
  rw [Cert.LibColumns.broadcastTo_a1_ab_apply]
  refine congrArg (· * x2 (ix2 p (0 : Fin 1))) ?_
  exact Cert.PlainDot.matmul_zero_apply dot_S10000x128_S128x128_S10000x128_1_0_0_1_n_n rfl rfl dotA_l0 dotA_l1 dotA_r0 dotA_r1
    none (truncf .bf16 x0 bitsLt_bf16_f32) (truncf .bf16 x1 bitsLt_bf16_f32) p c

/-- The second layer's projection body at entry (p, c). -/
theorem proj2_entry (x0 : Vec Ideal S10000x128 .f32) (x1 : Vec Ideal S128x64 .f32) (x2 : Vec Ideal S10000x1 .f32)
    (p : Fin 10000) (c : Fin 64) :
    k2_pay1 x0 x1 x2 (ix2 p c) = (∑ k : Fin 128, x0 (ix2 p k) * x1 (ix2 k c)) * x2 (ix2 p (0 : Fin 1)) := by
  unfold k2_pay1
  rw [shapeCast_self, shapeCast_self]
  refine (mulf_apply _ _ (ix2 p c)).trans ?_
  rw [Cert.LibColumns.broadcastTo_a1_ab_apply]
  refine congrArg (· * x2 (ix2 p (0 : Fin 1))) ?_
  exact Cert.PlainDot.matmul_zero_apply dot_S10000x128_S128x64_S10000x64_1_0_0_1_n_n rfl rfl dotB_l0 dotB_l1 dotB_r0 dotB_r1
    none (truncf .bf16 x0 bitsLt_bf16_f32) (truncf .bf16 x1 bitsLt_bf16_f32) p c

/-- The first layer's aggregation body at entry (p, c): the block's entry scaled by the p-th factor, plus the c-th
    bias, rectified. -/
theorem agg1_entry (x0 : Vec Ideal S10000x128 .f32) (x1 : Vec Ideal S10000x1 .f32) (x2 : Vec Ideal S1x128 .f32)
    (p : Fin 10000) (c : Fin 128) :
    k1_pay1 x0 x1 x2 (ix2 p c) = max (x0 (ix2 p c) * x1 (ix2 p (0 : Fin 1)) + x2 (ix2 (0 : Fin 1) c)) 0 := by
  unfold k1_pay1
  rw [shapeCast_self, shapeCast_self, shapeCast_self]
  refine (maximumf_apply _ _ (ix2 p c)).trans ?_
  rw [addf_apply, mulf_apply, Cert.LibColumns.broadcastTo_a1_ab_apply, broadcastTo_1b_ab_apply, broadcast_apply]
  show max _ (Ideal.ofBits .f32 0x00000000#32) = _
  rw [Ideal.ofBits_zero_f32]

/-- The second layer's aggregation body at entry (p, c): the same without the rectifier. -/
theorem agg2_entry (x0 : Vec Ideal S10000x64 .f32) (x1 : Vec Ideal S10000x1 .f32) (x2 : Vec Ideal S1x64 .f32)
    (p : Fin 10000) (c : Fin 64) :
    k3_pay1 x0 x1 x2 (ix2 p c) = x0 (ix2 p c) * x1 (ix2 p (0 : Fin 1)) + x2 (ix2 (0 : Fin 1) c) := by
  unfold k3_pay1
  rw [shapeCast_self, shapeCast_self, shapeCast_self]
  refine (addf_apply _ _ (ix2 p c)).trans ?_
  rw [mulf_apply, Cert.LibColumns.broadcastTo_a1_ab_apply, broadcastTo_1b_ab_apply]

end Cert.KernelIdeal.Entries

end
-- ==== Proof.GcnSpec.lean ====
/-
  What each stage of a two-layer degree-normalised graph convolution computes, entry by entry, on the extended reals.

  A layer projects the node features, `a · w`, scales row p of the product by the factor d(p) of node p (the reciprocal
  square root of its degree), sums — for every node n — the scaled rows of the sources of the edges that end at n, and
  then scales row n of the sum by d(n) and adds the biases (the first layer also rectifies). These are the two dense
  stages as functions of the coordinates; the edge sum between them is the host's gather and scatter and stays spelt as
  those operations.
-/
import Idealize.ShloMosaic.Lib.ValueIdx
import Idealize.ShloMosaic.PureOps.Ideal

noncomputable section

open scoped BigOperators

namespace Cert.GcnSpec

open Idealize.ShloMosaic Idealize.ShloMosaic.ValueIdx

variable {N K M : Nat}

/-- Row p of `a · w` at column c, scaled by node p's factor. -/
def projAt (A : (⟨2, ![N, K]⟩ : Shape).Idx → EReal) (W : (⟨2, ![K, M]⟩ : Shape).Idx → EReal)
    (D : (⟨2, ![N, 1]⟩ : Shape).Idx → EReal) (p : Fin N) (c : Fin M) : EReal :=
  (∑ k : Fin K, A (ix2 p k) * W (ix2 k c)) * D (ix2 p (0 : Fin 1))

/-- The scaled projection as an array. -/
def proj (A : (⟨2, ![N, K]⟩ : Shape).Idx → EReal) (W : (⟨2, ![K, M]⟩ : Shape).Idx → EReal)
    (D : (⟨2, ![N, 1]⟩ : Shape).Idx → EReal) : (⟨2, ![N, M]⟩ : Shape).Idx → EReal :=
  fun i => projAt A W D (i 0) (i 1)

/-- Entry (p, c) of an edge sum scaled by node p's factor, plus bias c. -/
def aggAt (S : (⟨2, ![N, M]⟩ : Shape).Idx → EReal) (D : (⟨2, ![N, 1]⟩ : Shape).Idx → EReal)
    (B : (⟨2, ![1, M]⟩ : Shape).Idx → EReal) (p : Fin N) (c : Fin M) : EReal :=
  S (ix2 p c) * D (ix2 p (0 : Fin 1)) + B (ix2 (0 : Fin 1) c)

/-- The second layer's output as an array. -/
def agg (S : (⟨2, ![N, M]⟩ : Shape).Idx → EReal) (D : (⟨2, ![N, 1]⟩ : Shape).Idx → EReal)
    (B : (⟨2, ![1, M]⟩ : Shape).Idx → EReal) : (⟨2, ![N, M]⟩ : Shape).Idx → EReal :=
  fun i => aggAt S D B (i 0) (i 1)

/-- The first layer's output as an array: the same, rectified. -/
def aggRelu (S : (⟨2, ![N, M]⟩ : Shape).Idx → EReal) (D : (⟨2, ![N, 1]⟩ : Shape).Idx → EReal)
    (B : (⟨2, ![1, M]⟩ : Shape).Idx → EReal) : (⟨2, ![N, M]⟩ : Shape).Idx → EReal :=
  fun i => max (aggAt S D B (i 0) (i 1)) 0

theorem proj_apply (A : (⟨2, ![N, K]⟩ : Shape).Idx → EReal) (W : (⟨2, ![K, M]⟩ : Shape).Idx → EReal)
    (D : (⟨2, ![N, 1]⟩ : Shape).Idx → EReal) (p : Fin N) (c : Fin M) : proj A W D (ix2 p c) = projAt A W D p c := rfl
theorem agg_apply (S : (⟨2, ![N, M]⟩ : Shape).Idx → EReal) (D : (⟨2, ![N, 1]⟩ : Shape).Idx → EReal)
    (B : (⟨2, ![1, M]⟩ : Shape).Idx → EReal) (p : Fin N) (c : Fin M) : agg S D B (ix2 p c) = aggAt S D B p c := rfl
theorem aggRelu_apply (S : (⟨2, ![N, M]⟩ : Shape).Idx → EReal) (D : (⟨2, ![N, 1]⟩ : Shape).Idx → EReal)
    (B : (⟨2, ![1, M]⟩ : Shape).Idx → EReal) (p : Fin N) (c : Fin M) :
    aggRelu S D B (ix2 p c) = max (aggAt S D B p c) 0 := rfl

end Cert.GcnSpec

end
-- ==== Proof.RegionProj1.lean ====
/-
  What the first projection region leaves in its output array.

  The region runs the projection body at ten points; point t fetches rows 10000·t … 10000·t + 9999 of the features and of
  the factor column, the whole weight matrix, and writes its result back as the same rows of the output. So entry (r, c) of
  the output array is the body's entry (r mod 10000, c) at point r / 10000: row r of the features times column c of the
  weights, scaled by the r-th factor — the scaled projection of the arrays the region is entered with.
-/
import proofs.«171091_j3650722202372_2_alg».proof.Proof.Gen.KernelIdeal.Frame
import proofs.«171091_j3650722202372_2_alg».proof.Proof.BodyEntries
import proofs.«171091_j3650722202372_2_alg».proof.Proof.GcnSpec
import Idealize.ShloMosaic.Lib.Pipeline.Value
import Idealize.ShloMosaic.Lib.Tactic

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point t is rows 10000·t … of the array the region finds. -/
theorem iblk0_0_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → EReal) k := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The weights' block at every point is the whole matrix. -/
theorem iblk0_1_apply (c : Dev nD) (t : Fin cfg0.N) (x : S128x128.Idx) :
    (iblk0 V c 1 t : Vec Ideal S128x128 .f32) x = (V c main_arg2 : S128x128.Idx → EReal) x := by
  obtain ⟨-, -, e0, e1, -⟩ := idx_facts0 t
  unfold iblk0
  rw [View.read_apply]
  show V c main_arg2 _ = V c main_arg2 _
  refine congrArg _ ?_
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The factor column's block at point t is rows 10000·t … of the column. -/
theorem iblk0_2_apply (c : Dev nD) (t : Fin cfg0.N) (x : S10000x1.Idx) (k : S100000x1.Idx)
    (hk0 : (k 0).val = 10000 * t.val + (x 0).val) (hk1 : (k 1).val = (x 1).val) :
    (iblk0 V c 2 t : Vec Ideal S10000x1 .f32) x = (V c main_v15 : S100000x1.Idx → EReal) k := by
  obtain ⟨-, -, -, -, e0, e1, -⟩ := idx_facts0 t
  unfold iblk0
  rw [View.read_apply]
  show V c main_v15 _ = V c main_v15 _
  refine congrArg _ ?_
  funext a
  apply Fin.ext
  match a with
  | ⟨0, _⟩ => show win0_2.index t 0 * 10000 + 1 * (x 0).val = (k 0).val; rw [e0, hk0]; omega
  | ⟨1, _⟩ => show win0_2.index t 1 * 1 + 1 * (x 1).val = (k 1).val; rw [e1, hk1]; omega

/-- WHAT POINT t WRITES BACK is block t of the scaled projection of the arrays the region is entered with. -/
theorem flushed_proj1 (c : Dev nD) (t : Fin cfg0.N) :
    (dat0 V c).flushed 3 t = ((cfg0.win 3).blk t).view.read (Elt Ideal)
      (Cert.GcnSpec.proj (V c main_arg0 : S100000x128.Idx → EReal) (V c main_arg2 : S128x128.Idx → EReal)
        (V c main_v15 : S100000x1.Idx → EReal)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S10000x1) hz]
  obtain ⟨-, -, -, -, -, -, e0, e1⟩ := idx_facts0 t
  have hN : cfg0.N = 10 := N_0
  have ht : t.val < 10 := hN ▸ t.isLt
  funext j
  obtain ⟨p, q, rfl⟩ : ∃ (p : Fin 10000) (q : Fin 128), j = ix2 p q := ⟨j 0, j 1, eq_ix2 j⟩
  have hp := p.isLt
  have hq := q.isLt
  let r : Fin 100000 := ⟨10000 * t.val + p.val, by omega⟩
  have hemb : ((cfg0.win 3).blk t).view.emb (ix2 p q) = (ix2 r q : S100000x128.Idx) := by
    funext a
    apply Fin.ext
    match a with
    | ⟨0, _⟩ => show win0_3.index t 0 * 10000 + 1 * p.val = 10000 * t.val + p.val; rw [e0]; omega
    | ⟨1, _⟩ => show win0_3.index t 1 * 128 + 1 * q.val = q.val; rw [e1]; omega
  show k0_pay1 (iblk0 V c 0 t) (iblk0 V c 1 t) (iblk0 V c 2 t) (ix2 p q) = Cert.GcnSpec.proj _ _ _ (((cfg0.win 3).blk t).view.emb (ix2 p q))
  rw [hemb, Cert.GcnSpec.proj_apply]
  refine (Cert.KernelIdeal.Entries.proj1_entry (iblk0 V c 0 t) (iblk0 V c 1 t) (iblk0 V c 2 t) p q).trans ?_
  unfold Cert.GcnSpec.projAt
  rw [iblk0_2_apply V c t (ix2 p (0 : Fin 1)) (ix2 r (0 : Fin 1)) rfl rfl]
  refine congrArg (· * _) ?_
  refine Finset.sum_congr rfl fun k _ => ?_
  rw [iblk0_0_apply V c t (ix2 p k) (ix2 r k) rfl rfl, iblk0_1_apply V c t (ix2 k q)]

/-- An index of the array is in point t's block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v18).slice (win0_3.rect t)).set ↔ _
  rw [View.set_slice_whole, Rect.mem_set_unit]
  exact Iff.rfl

/-- Every row of the array lies in the block of the point numbered by its ten-thousands. -/
theorem cover0 (i : S100000x128.Idx) : ∃ t : Fin cfg0.N, (cfg0.win 3).flush t = true ∧ i ∈ ((cfg0.win 3).blk t).view.set := by
  have hN : cfg0.N = 10 := N_0
  have hi0 : (i 0).val < 100000 := (i 0).isLt
  have hi1 : (i 1).val < 128 := (i 1).isLt
  refine ⟨⟨(i 0).val / 10000, by rw [hN]; omega⟩, flush0_3 _, ?_⟩
  rw [mem_blk0]
  obtain ⟨-, -, -, -, -, -, e0, e1⟩ := idx_facts0 ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- THE ARRAY the region leaves: the scaled projection of the arrays it was entered with. -/
theorem final_proj1 (c : Dev nD) : (dat0 V c).arrAt 3 cfg0.N
    = Cert.GcnSpec.proj (V c main_arg0 : S100000x128.Idx → EReal) (V c main_arg2 : S128x128.Idx → EReal)
        (V c main_v15 : S100000x1.Idx → EReal) :=
  (dat0 V c).arrAt_eq_of_cover 3 _ (fun t _ => flushed_proj1 V c t) cover0

end Cert.KernelIdeal.Regions

end
-- ==== Proof.RegionAgg1.lean ====
/-
  What the first aggregation region leaves in its output array.

  The region runs the aggregation body at ten points; point t fetches rows 10000·t … 10000·t + 9999 of the edge sums and
  of the factor column, the whole row of biases, and writes its result back as the same rows of the output. So entry
  (r, c) of the output array is the body's entry (r mod 10000, c) at point r / 10000: the edge sum's entry (r, c) scaled
  by the r-th factor, plus the c-th bias, rectified.
-/
import proofs.«171091_j3650722202372_2_alg».proof.Proof.Gen.KernelIdeal.Frame
import proofs.«171091_j3650722202372_2_alg».proof.Proof.BodyEntries
import proofs.«171091_j3650722202372_2_alg».proof.Proof.GcnSpec
import Idealize.ShloMosaic.Lib.Pipeline.Value
import Idealize.ShloMosaic.Lib.Tactic

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-blocked windows sit at block (t, 0), the biases at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The edge sums' block at point t is rows 10000·t … of the array the region finds. -/
theorem iblk1_0_apply (c : Dev nD) (t : Fin cfg1.N) (x : S10000x128.Idx) (k : S100000x128.Idx)
    (hk0 : (k 0).val = 10000 * t.val + (x 0).val) (hk1 : (k 1).val = (x 1).val) :
    (iblk1 V c 0 t : Vec Ideal S10000x128 .f32) x = (V c main_v28 : S100000x128.Idx → EReal) k := by
  obtain ⟨e0, e1, -⟩ := idx_facts1 t
  unfold iblk1
  rw [View.read_apply]
  show V c main_v28 _ = V c main_v28 _
  refine congrArg _ ?_
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- The factor column's block at point t is rows 10000·t … of the column. -/
theorem iblk1_1_apply (c : Dev nD) (t : Fin cfg1.N) (x : S10000x1.Idx) (k : S100000x1.Idx)
    (hk0 : (k 0).val = 10000 * t.val + (x 0).val) (hk1 : (k 1).val = (x 1).val) :
    (iblk1 V c 1 t : Vec Ideal S10000x1 .f32) x = (V c main_v15 : S100000x1.Idx → EReal) k := by
  obtain ⟨-, -, e0, e1, -⟩ := idx_facts1 t
  unfold iblk1
  rw [View.read_apply]
  show V c main_v15 _ = V c main_v15 _
  refine congrArg _ ?_
  funext a
  apply Fin.ext
  match a with
  | ⟨0, _⟩ => show win1_1.index t 0 * 10000 + 1 * (x 0).val = (k 0).val; rw [e0, hk0]; omega
  | ⟨1, _⟩ => show win1_1.index t 1 * 1 + 1 * (x 1).val = (k 1).val; rw [e1, hk1]; omega

/-- The biases' block at every point is the whole row. -/
theorem iblk1_2_apply (c : Dev nD) (t : Fin cfg1.N) (x : S1x128.Idx) :
    (iblk1 V c 2 t : Vec Ideal S1x128 .f32) x = (V c main_v16 : S1x128.Idx → EReal) x := by
  obtain ⟨-, -, -, -, e0, e1, -⟩ := idx_facts1 t
  unfold iblk1
  rw [View.read_apply]
  show V c main_v16 _ = V c main_v16 _
  refine congrArg _ ?_
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- WHAT POINT t WRITES BACK is block t of the scaled, biased, rectified edge sums the region is entered with. -/
theorem flushed_agg1 (c : Dev nD) (t : Fin cfg1.N) :
    (dat1 V c).flushed 3 t = ((cfg1.win 3).blk t).view.read (Elt Ideal)
      (Cert.GcnSpec.aggRelu (V c main_v28 : S100000x128.Idx → EReal) (V c main_v15 : S100000x1.Idx → EReal)
        (V c main_v16 : S1x128.Idx → EReal)) := by
  show (cfg1.win 3).cut (grid1.coords t) ((dat1 V c).after 3 t) = _
  rw [after1_3]
  unfold out1_3
  rw [View.canon_unit_zero hz1]
  simp only [View.ld_unit_zero (S := S10000x128) hz1, View.ld_unit_zero (S := S10000x1) hz1, View.ld_unit_zero (S := S1x128) hz1]
  obtain ⟨-, -, -, -, -, -, e0, e1⟩ := idx_facts1 t
  have hN : cfg1.N = 10 := N_1
  have ht : t.val < 10 := hN ▸ t.isLt
  funext j
  obtain ⟨p, q, rfl⟩ : ∃ (p : Fin 10000) (q : Fin 128), j = ix2 p q := ⟨j 0, j 1, eq_ix2 j⟩
  have hp := p.isLt
  have hq := q.isLt
  let r : Fin 100000 := ⟨10000 * t.val + p.val, by omega⟩
  have hemb : ((cfg1.win 3).blk t).view.emb (ix2 p q) = (ix2 r q : S100000x128.Idx) := by
    funext a
    apply Fin.ext
    match a with
    | ⟨0, _⟩ => show win1_3.index t 0 * 10000 + 1 * p.val = 10000 * t.val + p.val; rw [e0]; omega
    | ⟨1, _⟩ => show win1_3.index t 1 * 128 + 1 * q.val = q.val; rw [e1]; omega
  show k1_pay1 (iblk1 V c 0 t) (iblk1 V c 1 t) (iblk1 V c 2 t) (ix2 p q) = Cert.GcnSpec.aggRelu _ _ _ (((cfg1.win 3).blk t).view.emb (ix2 p q))
  rw [hemb, Cert.GcnSpec.aggRelu_apply]
  refine (Cert.KernelIdeal.Entries.agg1_entry (iblk1 V c 0 t) (iblk1 V c 1 t) (iblk1 V c 2 t) p q).trans ?_
  unfold Cert.GcnSpec.aggAt
  rw [iblk1_0_apply V c t (ix2 p q) (ix2 r q) rfl rfl, iblk1_1_apply V c t (ix2 p (0 : Fin 1)) (ix2 r (0 : Fin 1)) rfl rfl,
    iblk1_2_apply V c t (ix2 (0 : Fin 1) q)]

/-- An index of the array is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v29).slice (win1_3.rect t)).set ↔ _
  rw [View.set_slice_whole, Rect.mem_set_unit]
  exact Iff.rfl

/-- Every row of the array lies in the block of the point numbered by its ten-thousands. -/
theorem cover1 (i : S100000x128.Idx) : ∃ t : Fin cfg1.N, (cfg1.win 3).flush t = true ∧ i ∈ ((cfg1.win 3).blk t).view.set := by
  have hN : cfg1.N = 10 := N_1
  have hi0 : (i 0).val < 100000 := (i 0).isLt
  have hi1 : (i 1).val < 128 := (i 1).isLt
  refine ⟨⟨(i 0).val / 10000, by rw [hN]; omega⟩, flush1_3 _, ?_⟩
  rw [mem_blk1]
  obtain ⟨-, -, -, -, -, -, e0, e1⟩ := idx_facts1 ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e1]; omega

/-- THE ARRAY the region leaves. -/
theorem final_agg1 (c : Dev nD) : (dat1 V c).arrAt 3 cfg1.N
    = Cert.GcnSpec.aggRelu (V c main_v28 : S100000x128.Idx → EReal) (V c main_v15 : S100000x1.Idx → EReal)
        (V c main_v16 : S1x128.Idx → EReal) :=
  (dat1 V c).arrAt_eq_of_cover 3 _ (fun t _ => flushed_agg1 V c t) cover1

end Cert.KernelIdeal.Regions

end
-- ==== Proof.RegionProj2.lean ====
/-
  What the second projection region leaves in its output array.

  The region runs the projection body at ten points; point t fetches rows 10000·t … 10000·t + 9999 of the features and of
  the factor column, the whole weight matrix, and writes its result back as the same rows of the output. So entry (r, c) of
  the output array is the body's entry (r mod 10000, c) at point r / 10000: row r of the features times column c of the
  weights, scaled by the r-th factor — the scaled projection of the arrays the region is entered with.
-/
import proofs.«171091_j3650722202372_2_alg».proof.Proof.Gen.KernelIdeal.Frame
import proofs.«171091_j3650722202372_2_alg».proof.Proof.BodyEntries
import proofs.«171091_j3650722202372_2_alg».proof.Proof.GcnSpec
import Idealize.ShloMosaic.Lib.Pipeline.Value
import Idealize.ShloMosaic.Lib.Tactic

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block (t, 0), the weights at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The features' block at point t is rows 10000·t … of the array the region finds. -/
theorem iblk2_0_apply (c : Dev nD) (t : Fin cfg2.N) (x : S10000x128.Idx) (k : S100000x128.Idx)
    (hk0 : (k 0).val = 10000 * t.val + (x 0).val) (hk1 : (k 1).val = (x 1).val) :
    (iblk2 V c 0 t : Vec Ideal S10000x128 .f32) x = (V c main_v29 : S100000x128.Idx → EReal) k := by
  obtain ⟨e0, e1, -⟩ := idx_facts2 t
  unfold iblk2
  rw [View.read_apply]
  show V c main_v29 _ = V c main_v29 _
  refine congrArg _ ?_
  funext a
  apply Fin.ext
  match a with
  | ⟨0, _⟩ => show win2_0.index t 0 * 10000 + 1 * (x 0).val = (k 0).val; rw [e0, hk0]; omega
  | ⟨1, _⟩ => show win2_0.index t 1 * 128 + 1 * (x 1).val = (k 1).val; rw [e1, hk1]; omega

/-- The weights' block at every point is the whole matrix. -/
theorem iblk2_1_apply (c : Dev nD) (t : Fin cfg2.N) (x : S128x64.Idx) :
    (iblk2 V c 1 t : Vec Ideal S128x64 .f32) x = (V c main_arg4 : S128x64.Idx → EReal) x := by
  obtain ⟨-, -, e0, e1, -⟩ := idx_facts2 t
  unfold iblk2
  rw [View.read_apply]
  show V c main_arg4 _ = V c main_arg4 _
  refine congrArg _ ?_
  funext a
  apply Fin.ext
  match a with
  | ⟨0, _⟩ => show win2_1.index t 0 * 128 + 1 * (x 0).val = (x 0).val; rw [e0]; omega
  | ⟨1, _⟩ => show win2_1.index t 1 * 64 + 1 * (x 1).val = (x 1).val; rw [e1]; omega

/-- The factor column's block at point t is rows 10000·t … of the column. -/
theorem iblk2_2_apply (c : Dev nD) (t : Fin cfg2.N) (x : S10000x1.Idx) (k : S100000x1.Idx)
    (hk0 : (k 0).val = 10000 * t.val + (x 0).val) (hk1 : (k 1).val = (x 1).val) :
    (iblk2 V c 2 t : Vec Ideal S10000x1 .f32) x = (V c main_v15 : S100000x1.Idx → EReal) k := by
  obtain ⟨-, -, -, -, e0, e1, -⟩ := idx_facts2 t
  unfold iblk2
  rw [View.read_apply]
  show V c main_v15 _ = V c main_v15 _
  refine congrArg _ ?_
  funext a
  apply Fin.ext
  match a with
  | ⟨0, _⟩ => show win2_2.index t 0 * 10000 + 1 * (x 0).val = (k 0).val; rw [e0, hk0]; omega
  | ⟨1, _⟩ => show win2_2.index t 1 * 1 + 1 * (x 1).val = (k 1).val; rw [e1, hk1]; omega

/-- WHAT POINT t WRITES BACK is block t of the scaled projection of the arrays the region is entered with. -/
theorem flushed_proj2 (c : Dev nD) (t : Fin cfg2.N) :
    (dat2 V c).flushed 3 t = ((cfg2.win 3).blk t).view.read (Elt Ideal)
      (Cert.GcnSpec.proj (V c main_v29 : S100000x128.Idx → EReal) (V c main_arg4 : S128x64.Idx → EReal)
        (V c main_v15 : S100000x1.Idx → EReal)) := by
  show (cfg2.win 3).cut (grid2.coords t) ((dat2 V c).after 3 t) = _
  rw [after2_3]
  unfold out2_3
  rw [View.canon_unit_zero hz2]
  simp only [View.ld_unit_zero (S := S10000x128) hz2, View.ld_unit_zero (S := S128x64) hz2, View.ld_unit_zero (S := S10000x1) hz2]
  obtain ⟨-, -, -, -, -, -, e0, e1⟩ := idx_facts2 t
  have hN : cfg2.N = 10 := N_2
  have ht : t.val < 10 := hN ▸ t.isLt
  funext j
  obtain ⟨p, q, rfl⟩ : ∃ (p : Fin 10000) (q : Fin 64), j = ix2 p q := ⟨j 0, j 1, eq_ix2 j⟩
  have hp := p.isLt
  have hq := q.isLt
  let r : Fin 100000 := ⟨10000 * t.val + p.val, by omega⟩
  have hemb : ((cfg2.win 3).blk t).view.emb (ix2 p q) = (ix2 r q : S100000x64.Idx) := by
    funext a
    apply Fin.ext
    match a with
    | ⟨0, _⟩ => show win2_3.index t 0 * 10000 + 1 * p.val = 10000 * t.val + p.val; rw [e0]; omega
    | ⟨1, _⟩ => show win2_3.index t 1 * 64 + 1 * q.val = q.val; rw [e1]; omega
  show k2_pay1 (iblk2 V c 0 t) (iblk2 V c 1 t) (iblk2 V c 2 t) (ix2 p q) = Cert.GcnSpec.proj _ _ _ (((cfg2.win 3).blk t).view.emb (ix2 p q))
  rw [hemb, Cert.GcnSpec.proj_apply]
  refine (Cert.KernelIdeal.Entries.proj2_entry (iblk2 V c 0 t) (iblk2 V c 1 t) (iblk2 V c 2 t) p q).trans ?_
  unfold Cert.GcnSpec.projAt
  rw [iblk2_2_apply V c t (ix2 p (0 : Fin 1)) (ix2 r (0 : Fin 1)) rfl rfl]
  refine congrArg (· * _) ?_
  refine Finset.sum_congr rfl fun k _ => ?_
  rw [iblk2_0_apply V c t (ix2 p k) (ix2 r k) rfl rfl, iblk2_1_apply V c t (ix2 k q)]

/-- An index of the array is in point t's block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v30).slice (win2_3.rect t)).set ↔ _
  rw [View.set_slice_whole, Rect.mem_set_unit]
  exact Iff.rfl

/-- Every row of the array lies in the block of the point numbered by its ten-thousands. -/
theorem cover2 (i : S100000x64.Idx) : ∃ t : Fin cfg2.N, (cfg2.win 3).flush t = true ∧ i ∈ ((cfg2.win 3).blk t).view.set := by
  have hN : cfg2.N = 10 := N_2
  have hi0 : (i 0).val < 100000 := (i 0).isLt
  have hi1 : (i 1).val < 64 := (i 1).isLt
  refine ⟨⟨(i 0).val / 10000, by rw [hN]; omega⟩, flush2_3 _, ?_⟩
  rw [mem_blk2]
  obtain ⟨-, -, -, -, -, -, e0, e1⟩ := idx_facts2 ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e0]; show (i 0).val / 10000 * 10000 ≤ (i 0).val ∧ (i 0).val < (i 0).val / 10000 * 10000 + 10000; omega
  | ⟨1, _⟩ =>
    show win2_3.index _ (1 : Fin 2) * 64 ≤ (i 1).val ∧ (i 1).val < win2_3.index _ (1 : Fin 2) * 64 + 64
    rw [e1]; omega

/-- THE ARRAY the region leaves: the scaled projection of the arrays it was entered with. -/
theorem final_proj2 (c : Dev nD) : (dat2 V c).arrAt 3 cfg2.N
    = Cert.GcnSpec.proj (V c main_v29 : S100000x128.Idx → EReal) (V c main_arg4 : S128x64.Idx → EReal)
        (V c main_v15 : S100000x1.Idx → EReal) :=
  (dat2 V c).arrAt_eq_of_cover 3 _ (fun t _ => flushed_proj2 V c t) cover2

end Cert.KernelIdeal.Regions

end
-- ==== Proof.RegionAgg2.lean ====
/-
  What the second aggregation region leaves in its output array.

  The region runs the aggregation body at ten points; point t fetches rows 10000·t … 10000·t + 9999 of the edge sums and
  of the factor column, the whole row of biases, and writes its result back as the same rows of the output. So entry
  (r, c) of the output array is the body's entry (r mod 10000, c) at point r / 10000: the edge sum's entry (r, c) scaled
  by the r-th factor, plus the c-th bias.
-/
import proofs.«171091_j3650722202372_2_alg».proof.Proof.Gen.KernelIdeal.Frame
import proofs.«171091_j3650722202372_2_alg».proof.Proof.BodyEntries
import proofs.«171091_j3650722202372_2_alg».proof.Proof.GcnSpec
import Idealize.ShloMosaic.Lib.Pipeline.Value
import Idealize.ShloMosaic.Lib.Tactic

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the row-blocked windows sit at block (t, 0), the biases at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The edge sums' block at point t is rows 10000·t … of the array the region finds. -/
theorem iblk3_0_apply (c : Dev nD) (t : Fin cfg3.N) (x : S10000x64.Idx) (k : S100000x64.Idx)
    (hk0 : (k 0).val = 10000 * t.val + (x 0).val) (hk1 : (k 1).val = (x 1).val) :
    (iblk3 V c 0 t : Vec Ideal S10000x64 .f32) x = (V c main_v40 : S100000x64.Idx → EReal) k := by
  obtain ⟨e0, e1, -⟩ := idx_facts3 t
  unfold iblk3
  rw [View.read_apply]
  show V c main_v40 _ = V c main_v40 _
  refine congrArg _ ?_
  funext a
  apply Fin.ext
  match a with
  | ⟨0, _⟩ => show win3_0.index t 0 * 10000 + 1 * (x 0).val = (k 0).val; rw [e0, hk0]; omega
  | ⟨1, _⟩ => show win3_0.index t 1 * 64 + 1 * (x 1).val = (k 1).val; rw [e1, hk1]; omega

/-- The factor column's block at point t is rows 10000·t … of the column. -/
theorem iblk3_1_apply (c : Dev nD) (t : Fin cfg3.N) (x : S10000x1.Idx) (k : S100000x1.Idx)
    (hk0 : (k 0).val = 10000 * t.val + (x 0).val) (hk1 : (k 1).val = (x 1).val) :
    (iblk3 V c 1 t : Vec Ideal S10000x1 .f32) x = (V c main_v15 : S100000x1.Idx → EReal) k := by
  obtain ⟨-, -, e0, e1, -⟩ := idx_facts3 t
  unfold iblk3
  rw [View.read_apply]
  show V c main_v15 _ = V c main_v15 _
  refine congrArg _ ?_
  funext a
  apply Fin.ext
  match a with
  | ⟨0, _⟩ => show win3_1.index t 0 * 10000 + 1 * (x 0).val = (k 0).val; rw [e0, hk0]; omega
  | ⟨1, _⟩ => show win3_1.index t 1 * 1 + 1 * (x 1).val = (k 1).val; rw [e1, hk1]; omega

/-- The biases' block at every point is the whole row. -/
theorem iblk3_2_apply (c : Dev nD) (t : Fin cfg3.N) (x : S1x64.Idx) :
    (iblk3 V c 2 t : Vec Ideal S1x64 .f32) x = (V c main_v17 : S1x64.Idx → EReal) x := by
  obtain ⟨-, -, -, -, e0, e1, -⟩ := idx_facts3 t
  unfold iblk3
  rw [View.read_apply]
  show V c main_v17 _ = V c main_v17 _
  refine congrArg _ ?_
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- WHAT POINT t WRITES BACK is block t of the scaled, biased edge sums the region is entered with. -/
theorem flushed_agg2 (c : Dev nD) (t : Fin cfg3.N) :
    (dat3 V c).flushed 3 t = ((cfg3.win 3).blk t).view.read (Elt Ideal)
      (Cert.GcnSpec.agg (V c main_v40 : S100000x64.Idx → EReal) (V c main_v15 : S100000x1.Idx → EReal)
        (V c main_v17 : S1x64.Idx → EReal)) := by
  show (cfg3.win 3).cut (grid3.coords t) ((dat3 V c).after 3 t) = _
  rw [after3_3]
  unfold out3_3
  rw [View.canon_unit_zero hz3]
  simp only [View.ld_unit_zero (S := S10000x64) hz3, View.ld_unit_zero (S := S10000x1) hz3, View.ld_unit_zero (S := S1x64) hz3]
  obtain ⟨-, -, -, -, -, -, e0, e1⟩ := idx_facts3 t
  have hN : cfg3.N = 10 := N_3
  have ht : t.val < 10 := hN ▸ t.isLt
  funext j
  obtain ⟨p, q, rfl⟩ : ∃ (p : Fin 10000) (q : Fin 64), j = ix2 p q := ⟨j 0, j 1, eq_ix2 j⟩
  have hp := p.isLt
  have hq := q.isLt
  let r : Fin 100000 := ⟨10000 * t.val + p.val, by omega⟩
  have hemb : ((cfg3.win 3).blk t).view.emb (ix2 p q) = (ix2 r q : S100000x64.Idx) := by
    funext a
    apply Fin.ext
    match a with
    | ⟨0, _⟩ => show win3_3.index t 0 * 10000 + 1 * p.val = 10000 * t.val + p.val; rw [e0]; omega
    | ⟨1, _⟩ => show win3_3.index t 1 * 64 + 1 * q.val = q.val; rw [e1]; omega
  show k3_pay1 (iblk3 V c 0 t) (iblk3 V c 1 t) (iblk3 V c 2 t) (ix2 p q) = Cert.GcnSpec.agg _ _ _ (((cfg3.win 3).blk t).view.emb (ix2 p q))
  rw [hemb, Cert.GcnSpec.agg_apply]
  refine (Cert.KernelIdeal.Entries.agg2_entry (iblk3 V c 0 t) (iblk3 V c 1 t) (iblk3 V c 2 t) p q).trans ?_
  unfold Cert.GcnSpec.aggAt
  rw [iblk3_0_apply V c t (ix2 p q) (ix2 r q) rfl rfl, iblk3_1_apply V c t (ix2 p (0 : Fin 1)) (ix2 r (0 : Fin 1)) rfl rfl,
    iblk3_2_apply V c t (ix2 (0 : Fin 1) q)]

/-- An index of the array is in point t's block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v41).slice (win3_3.rect t)).set ↔ _
  rw [View.set_slice_whole, Rect.mem_set_unit]
  exact Iff.rfl

/-- Every row of the array lies in the block of the point numbered by its ten-thousands. -/
theorem cover3 (i : S100000x64.Idx) : ∃ t : Fin cfg3.N, (cfg3.win 3).flush t = true ∧ i ∈ ((cfg3.win 3).blk t).view.set := by
  have hN : cfg3.N = 10 := N_3
  have hi0 : (i 0).val < 100000 := (i 0).isLt
  have hi1 : (i 1).val < 64 := (i 1).isLt
  refine ⟨⟨(i 0).val / 10000, by rw [hN]; omega⟩, flush3_3 _, ?_⟩
  rw [mem_blk3]
  obtain ⟨-, -, -, -, -, -, e0, e1⟩ := idx_facts3 ⟨(i 0).val / 10000, by rw [hN]; omega⟩
  intro a
  match a with
  | ⟨0, _⟩ =>
    show win3_3.index _ (0 : Fin 2) * 10000 ≤ (i 0).val ∧ (i 0).val < win3_3.index _ (0 : Fin 2) * 10000 + 10000
    rw [e0]; show (i 0).val / 10000 * 10000 ≤ (i 0).val ∧ (i 0).val < (i 0).val / 10000 * 10000 + 10000; omega
  | ⟨1, _⟩ =>
    show win3_3.index _ (1 : Fin 2) * 64 ≤ (i 1).val ∧ (i 1).val < win3_3.index _ (1 : Fin 2) * 64 + 64
    rw [e1]; omega

/-- THE ARRAY the region leaves. -/
theorem final_agg2 (c : Dev nD) : (dat3 V c).arrAt 3 cfg3.N
    = Cert.GcnSpec.agg (V c main_v40 : S100000x64.Idx → EReal) (V c main_v15 : S100000x1.Idx → EReal)
        (V c main_v17 : S1x64.Idx → EReal) :=
  (dat3 V c).arrAt_eq_of_cover 3 _ (fun t _ => flushed_agg2 V c t) cover3

end Cert.KernelIdeal.Regions

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.KernelFold.lean ====
/-
  What the kernel program leaves in its result buffer, as one term of its arguments.

  Through the program's nine segments the buffers hold: after the first host stretches, the source and destination index
  vectors of the edges (the given edges followed by one self-loop per node), the node factors as a column — the
  reciprocal square root of a node's in-degree, zero where the degree is not positive — and the two bias vectors as
  rows; after the first projection region the features times the first weights, row p scaled by node p's factor; after
  the next stretch, for every node, the sum of the scaled rows of the sources of the edges ending there (a gather at the
  wrapped source indices, an accumulating scatter at the destination indices); after the first aggregation region that
  sum scaled by the node's factor, plus the first biases, rectified; and the same three steps once more with the second
  weights and biases and no rectifier. Buffers that a segment does not write are carried through it unchanged.
-/
import proofs.«171091_j3650722202372_2_alg».proof.Proof.Gen.KernelIdeal.Frame
import proofs.«171091_j3650722202372_2_alg».proof.Proof.RegionProj1
import proofs.«171091_j3650722202372_2_alg».proof.Proof.RegionAgg1
import proofs.«171091_j3650722202372_2_alg».proof.Proof.RegionProj2
import proofs.«171091_j3650722202372_2_alg».proof.Proof.RegionAgg2
import proofs.«171091_j3650722202372_2_alg».proof.Proof.RefRead
import proofs.«171091_j3650722202372_2_alg».proof.Proof.LibHostLine
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The stages' names -/

/-- For every node, the sum of the rows of `P` (128 columns) at the wrapped source indices `Rv` of the edges whose
    destination index in `Cv` is that node. -/
def edgeSumA (P : FVec Ideal S100000x128 .f32) (Rv Cv : IVec S1700000 32) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 Cv)
    (Host.gather gather_S100000x128_S1700000x1_S1700000x128_1_0_n_n_0_1_1128 P
      (broadcastInDim S1700000x1 ![0] bcast_S1700000_S1700000x1_0
        (select (cmpi .slt Rv (broadcastInDim S1700000 ![] bcast_S_S1700000 (constantI S_ 32 0#32)))
          (addi Rv (broadcastInDim S1700000 ![] bcast_S_S1700000 (constantI S_ 32 100000#32))) Rv)))

/-- The same for rows of 64 columns. -/
def edgeSumB (P : FVec Ideal S100000x64 .f32) (Rv Cv : IVec S1700000 32) : FVec Ideal S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 Cv)
    (Host.gather gather_S100000x64_S1700000x1_S1700000x64_1_0_n_n_0_1_164 P
      (broadcastInDim S1700000x1 ![0] bcast_S1700000_S1700000x1_0
        (select (cmpi .slt Rv (broadcastInDim S1700000 ![] bcast_S_S1700000 (constantI S_ 32 0#32)))
          (addi Rv (broadcastInDim S1700000 ![] bcast_S_S1700000 (constantI S_ 32 100000#32))) Rv)))

/-- The features, the two weight matrices, and the edge list, as launched. -/
abbrev X (c : Dev nD) : FVec Ideal S100000x128 .f32 := m ((c : Thread nD τ).loc main_arg0)
abbrev Wt1 (c : Dev nD) : FVec Ideal S128x128 .f32 := m ((c : Thread nD τ).loc main_arg2)
abbrev Wt2 (c : Dev nD) : FVec Ideal S128x64 .f32 := m ((c : Thread nD τ).loc main_arg4)
abbrev Edges (c : Dev nD) : IVec S2x1600000 32 := m ((c : Thread nD τ).loc main_arg1)
/-- The edges' source and destination index vectors (self-loops appended), named by the stage functions of the
    reference's own index vectors: the two programs compute them by the same operations. -/
abbrev Rv (c : Dev nD) : IVec S1700000 32 := Cert.ReferenceIdeal.ReadP.val_main_v3 (F := Ideal) (Edges m c)
abbrev Cv (c : Dev nD) : IVec S1700000 32 := Cert.ReferenceIdeal.ReadP.val_main_v6 (F := Ideal) (Edges m c)
/-- The node factors as a column, and the two bias vectors as rows. -/
abbrev Dcol (c : Dev nD) : FVec Ideal S100000x1 .f32 :=
  shapeCast S100000x1 (Cert.ReferenceIdeal.ReadP.val_main_v14 (F := Ideal) (Edges m c)) shapeCasts_S100000_S100000x1
abbrev B1 (c : Dev nD) : FVec Ideal S1x128 .f32 :=
  shapeCast S1x128 (m ((c : Thread nD τ).loc main_arg3) : FVec Ideal S128 .f32) shapeCasts_S128_S1x128
abbrev B2 (c : Dev nD) : FVec Ideal S1x64 .f32 :=
  shapeCast S1x64 (m ((c : Thread nD τ).loc main_arg5) : FVec Ideal S64 .f32) shapeCasts_S64_S1x64

/-- The kernel's result: the second layer over the first. -/
def result (c : Dev nD) : FVec Ideal S100000x64 .f32 :=
  Cert.GcnSpec.agg
    (edgeSumB (Cert.GcnSpec.proj
      (Cert.GcnSpec.aggRelu (edgeSumA (Cert.GcnSpec.proj (X m c) (Wt1 m c) (Dcol m c)) (Rv m c) (Cv m c)) (Dcol m c) (B1 m c))
      (Wt2 m c) (Dcol m c)) (Rv m c) (Cv m c))
    (Dcol m c) (B2 m c)

/-! ## The contents at the first region's entry -/

theorem at3_arg0 (c : Dev nD) : W3 m ρ c (Proc.devRef .tc main_arg0) = X m c := by
  dsimp only [W3, W2, W1, hostOps0, hostOps0_1, hostOps0_2]
  after_results
theorem at3_arg2 (c : Dev nD) : W3 m ρ c (Proc.devRef .tc main_arg2) = Wt1 m c := by
  dsimp only [W3, W2, W1, hostOps0, hostOps0_1, hostOps0_2]
  after_results
theorem at3_arg4 (c : Dev nD) : W3 m ρ c (Proc.devRef .tc main_arg4) = Wt2 m c := by
  dsimp only [W3, W2, W1, hostOps0, hostOps0_1, hostOps0_2]
  after_results
set_option maxHeartbeats 8000000 in
theorem at3_v3 (c : Dev nD) : W3 m ρ c (Proc.devRef .tc main_v3) = Rv m c := by
  dsimp only [W3, W2, W1, hostOps0, hostOps0_1, hostOps0_2]
  after_results
  rfl
set_option maxHeartbeats 8000000 in
theorem at3_v6 (c : Dev nD) : W3 m ρ c (Proc.devRef .tc main_v6) = Cv m c := by
  dsimp only [W3, W2, W1, hostOps0, hostOps0_1, hostOps0_2]
  after_results
  rfl
set_option maxHeartbeats 8000000 in
/-- The degree's comparison with zero, its reciprocal square root and the zero constant, after the first stretch. -/
theorem at1_v12 (c : Dev nD) : W1 m ρ c (Proc.devRef .tc main_v12) = Cert.ReferenceIdeal.ReadP.val_main_v12 (F := Ideal) (Edges m c) := by
  dsimp only [W1, hostOps0]
  after_results
  rfl
set_option maxHeartbeats 8000000 in
theorem at1_v13 (c : Dev nD) : W1 m ρ c (Proc.devRef .tc main_v13) = Cert.ReferenceIdeal.ReadP.val_main_v13 (F := Ideal) (Edges m c) := by
  dsimp only [W1, hostOps0]
  after_results
  rfl
theorem at1_cst_2 (c : Dev nD) : W1 m ρ c (Proc.devRef .tc main_cst_2) = Cert.ReferenceIdeal.ReadP.val_main_cst_2 (F := Ideal) := by
  dsimp only [W1, hostOps0]
  after_results
  rfl
set_option maxHeartbeats 8000000 in
/-- The selection between them (the called function's three operations: what is written through a typed reference and
    read back through it is the value). -/
theorem at2_v14 (c : Dev nD) : W2 m ρ c (Proc.devRef .tc main_v14)
    = select (s := S100000) (α := Ideal .f32) (W1 m ρ c (Proc.devRef .tc main_v12))
        (W1 m ρ c (Proc.devRef .tc main_v13))
        (broadcastInDim (s := S_) (α := Ideal .f32) S100000 ![] bcast_S_S100000 (W1 m ρ c (Proc.devRef .tc main_cst_2))) := by
  dsimp only [W2, hostOps0_1]
  generalize W1 m ρ c = V1
  after_results
  simp only [Cert.LibHostLine.ofBuf_toBuf]
  rfl
/-- The node factors are the reference's own stage of the same name. -/
theorem factors_eq (E : IVec S2x1600000 32) :
    select (s := S100000) (α := Ideal .f32) (Cert.ReferenceIdeal.ReadP.val_main_v12 (F := Ideal) E) (Cert.ReferenceIdeal.ReadP.val_main_v13 (F := Ideal) E)
      (broadcastInDim (s := S_) (α := Ideal .f32) S100000 ![] bcast_S_S100000 (Cert.ReferenceIdeal.ReadP.val_main_cst_2 (F := Ideal)))
    = Cert.ReferenceIdeal.ReadP.val_main_v14 (F := Ideal) E := rfl
set_option maxHeartbeats 8000000 in
theorem at3_v15 (c : Dev nD) : W3 m ρ c (Proc.devRef .tc main_v15) = Dcol m c := by
  have h : W3 m ρ c (Proc.devRef .tc main_v15)
      = shapeCast (s := S100000) (α := Ideal .f32) S100000x1 (W2 m ρ c (Proc.devRef .tc main_v14)) shapeCasts_S100000_S100000x1 := by
    dsimp only [W3, hostOps0_2]
    generalize W2 m ρ c = V2
    after_results
    rfl
  rw [h, at2_v14, at1_v12, at1_v13, at1_cst_2, factors_eq]
set_option maxHeartbeats 8000000 in
theorem at3_v16 (c : Dev nD) : W3 m ρ c (Proc.devRef .tc main_v16) = B1 m c := by
  dsimp only [W3, W2, W1, hostOps0, hostOps0_1, hostOps0_2]
  after_results
  rfl
set_option maxHeartbeats 8000000 in
theorem at3_v17 (c : Dev nD) : W3 m ρ c (Proc.devRef .tc main_v17) = B2 m c := by
  dsimp only [W3, W2, W1, hostOps0, hostOps0_1, hostOps0_2]
  after_results
  rfl

/-! ## Buffers carried through a segment that does not write them -/

local macro "unwritten" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem at4_v3 (c : Dev nD) : W4 m ρ c (Proc.devRef .tc main_v3) = Rv m c :=
  (W4_of_ne m ρ c main_v3 (by decide)).trans (at3_v3 m ρ c)
theorem at4_v6 (c : Dev nD) : W4 m ρ c (Proc.devRef .tc main_v6) = Cv m c :=
  (W4_of_ne m ρ c main_v6 (by decide)).trans (at3_v6 m ρ c)
theorem at4_v15 (c : Dev nD) : W4 m ρ c (Proc.devRef .tc main_v15) = Dcol m c :=
  ((W4_arr m ρ c 2).trans (((dat0 (V3 m ρ) c).arrAt_in 2 rfl _).trans (A_eq0 (V3 m ρ) c 2))).trans (at3_v15 m ρ c)
theorem at4_v16 (c : Dev nD) : W4 m ρ c (Proc.devRef .tc main_v16) = B1 m c :=
  (W4_of_ne m ρ c main_v16 (by decide)).trans (at3_v16 m ρ c)
theorem at4_v17 (c : Dev nD) : W4 m ρ c (Proc.devRef .tc main_v17) = B2 m c :=
  (W4_of_ne m ρ c main_v17 (by decide)).trans (at3_v17 m ρ c)
theorem at4_arg4 (c : Dev nD) : W4 m ρ c (Proc.devRef .tc main_arg4) = Wt2 m c :=
  (W4_of_ne m ρ c main_arg4 (by decide)).trans (at3_arg4 m ρ c)

theorem at5_v3 (c : Dev nD) : W5 m ρ c (Proc.devRef .tc main_v3) = Rv m c :=
  (StableHlo.after_of_forall_not_mem (b := Proc.devRef .tc main_v3) _ _ (by unwritten hostOps1)).trans (at4_v3 m ρ c)
theorem at5_v6 (c : Dev nD) : W5 m ρ c (Proc.devRef .tc main_v6) = Cv m c :=
  (StableHlo.after_of_forall_not_mem (b := Proc.devRef .tc main_v6) _ _ (by unwritten hostOps1)).trans (at4_v6 m ρ c)
theorem at5_v15 (c : Dev nD) : W5 m ρ c (Proc.devRef .tc main_v15) = Dcol m c :=
  (StableHlo.after_of_forall_not_mem (b := Proc.devRef .tc main_v15) _ _ (by unwritten hostOps1)).trans (at4_v15 m ρ c)
theorem at5_v16 (c : Dev nD) : W5 m ρ c (Proc.devRef .tc main_v16) = B1 m c :=
  (StableHlo.after_of_forall_not_mem (b := Proc.devRef .tc main_v16) _ _ (by unwritten hostOps1)).trans (at4_v16 m ρ c)
theorem at5_v17 (c : Dev nD) : W5 m ρ c (Proc.devRef .tc main_v17) = B2 m c :=
  (StableHlo.after_of_forall_not_mem (b := Proc.devRef .tc main_v17) _ _ (by unwritten hostOps1)).trans (at4_v17 m ρ c)
theorem at5_arg4 (c : Dev nD) : W5 m ρ c (Proc.devRef .tc main_arg4) = Wt2 m c :=
  (StableHlo.after_of_forall_not_mem (b := Proc.devRef .tc main_arg4) _ _ (by unwritten hostOps1)).trans (at4_arg4 m ρ c)

theorem at6_v3 (c : Dev nD) : W6 m ρ c (Proc.devRef .tc main_v3) = Rv m c :=
  (W6_of_ne m ρ c main_v3 (by decide)).trans (at5_v3 m ρ c)
theorem at6_v6 (c : Dev nD) : W6 m ρ c (Proc.devRef .tc main_v6) = Cv m c :=
  (W6_of_ne m ρ c main_v6 (by decide)).trans (at5_v6 m ρ c)
theorem at6_v15 (c : Dev nD) : W6 m ρ c (Proc.devRef .tc main_v15) = Dcol m c :=
  ((W6_arr m ρ c 1).trans (((dat1 (V5 m ρ) c).arrAt_in 1 rfl _).trans (A_eq1 (V5 m ρ) c 1))).trans (at5_v15 m ρ c)
theorem at6_v17 (c : Dev nD) : W6 m ρ c (Proc.devRef .tc main_v17) = B2 m c :=
  (W6_of_ne m ρ c main_v17 (by decide)).trans (at5_v17 m ρ c)
theorem at6_arg4 (c : Dev nD) : W6 m ρ c (Proc.devRef .tc main_arg4) = Wt2 m c :=
  (W6_of_ne m ρ c main_arg4 (by decide)).trans (at5_arg4 m ρ c)

theorem at7_v3 (c : Dev nD) : W7 m ρ c (Proc.devRef .tc main_v3) = Rv m c :=
  (W7_of_ne m ρ c main_v3 (by decide)).trans (at6_v3 m ρ c)
theorem at7_v6 (c : Dev nD) : W7 m ρ c (Proc.devRef .tc main_v6) = Cv m c :=
  (W7_of_ne m ρ c main_v6 (by decide)).trans (at6_v6 m ρ c)
theorem at7_v15 (c : Dev nD) : W7 m ρ c (Proc.devRef .tc main_v15) = Dcol m c :=
  ((W7_arr m ρ c 2).trans (((dat2 (V6 m ρ) c).arrAt_in 2 rfl _).trans (A_eq2 (V6 m ρ) c 2))).trans (at6_v15 m ρ c)
theorem at7_v17 (c : Dev nD) : W7 m ρ c (Proc.devRef .tc main_v17) = B2 m c :=
  (W7_of_ne m ρ c main_v17 (by decide)).trans (at6_v17 m ρ c)

theorem at8_v15 (c : Dev nD) : W8 m ρ c (Proc.devRef .tc main_v15) = Dcol m c :=
  (StableHlo.after_of_forall_not_mem (b := Proc.devRef .tc main_v15) _ _ (by unwritten hostOps3)).trans (at7_v15 m ρ c)
theorem at8_v17 (c : Dev nD) : W8 m ρ c (Proc.devRef .tc main_v17) = B2 m c :=
  (StableHlo.after_of_forall_not_mem (b := Proc.devRef .tc main_v17) _ _ (by unwritten hostOps3)).trans (at7_v17 m ρ c)

/-! ## The six stages -/

/-- After the first projection region: the features times the first weights, rows scaled by the node factors. -/
theorem at4_v18 (c : Dev nD) :
    W4 m ρ c (Proc.devRef .tc main_v18) = Cert.GcnSpec.proj (X m c) (Wt1 m c) (Dcol m c) := by
  refine (W4_arr m ρ c 3).trans ((Cert.KernelIdeal.Regions.final_proj1 (V3 m ρ) c).trans ?_)
  show Cert.GcnSpec.proj (W3 m ρ c (Proc.devRef .tc main_arg0)) (W3 m ρ c (Proc.devRef .tc main_arg2))
    (W3 m ρ c (Proc.devRef .tc main_v15)) = _
  rw [at3_arg0, at3_arg2, at3_v15]

/-- After the next host stretch: the first layer's edge sums. -/
theorem at5_v28 (c : Dev nD) : W5 m ρ c (Proc.devRef .tc main_v28)
    = edgeSumA (Cert.GcnSpec.proj (X m c) (Wt1 m c) (Dcol m c)) (Rv m c) (Cv m c) := by
  have h : W5 m ρ c (Proc.devRef .tc main_v28)
      = edgeSumA (W4 m ρ c (Proc.devRef .tc main_v18)) (W4 m ρ c (Proc.devRef .tc main_v3)) (W4 m ρ c (Proc.devRef .tc main_v6)) := by
    dsimp only [W5, hostOps1]
    after_results
    rfl
  rw [h, at4_v18, at4_v3, at4_v6]

/-- After the first aggregation region: the first layer's output. -/
theorem at6_v29 (c : Dev nD) : W6 m ρ c (Proc.devRef .tc main_v29)
    = Cert.GcnSpec.aggRelu (edgeSumA (Cert.GcnSpec.proj (X m c) (Wt1 m c) (Dcol m c)) (Rv m c) (Cv m c)) (Dcol m c) (B1 m c) := by
  refine (W6_arr m ρ c 3).trans ((Cert.KernelIdeal.Regions.final_agg1 (V5 m ρ) c).trans ?_)
  show Cert.GcnSpec.aggRelu (W5 m ρ c (Proc.devRef .tc main_v28)) (W5 m ρ c (Proc.devRef .tc main_v15))
    (W5 m ρ c (Proc.devRef .tc main_v16)) = _
  rw [at5_v28, at5_v15, at5_v16]

/-- After the second projection region. -/
theorem at7_v30 (c : Dev nD) : W7 m ρ c (Proc.devRef .tc main_v30)
    = Cert.GcnSpec.proj
        (Cert.GcnSpec.aggRelu (edgeSumA (Cert.GcnSpec.proj (X m c) (Wt1 m c) (Dcol m c)) (Rv m c) (Cv m c)) (Dcol m c) (B1 m c))
        (Wt2 m c) (Dcol m c) := by
  refine (W7_arr m ρ c 3).trans ((Cert.KernelIdeal.Regions.final_proj2 (V6 m ρ) c).trans ?_)
  show Cert.GcnSpec.proj (W6 m ρ c (Proc.devRef .tc main_v29)) (W6 m ρ c (Proc.devRef .tc main_arg4))
    (W6 m ρ c (Proc.devRef .tc main_v15)) = _
  rw [at6_v29, at6_arg4, at6_v15]

/-- After the last host stretch: the second layer's edge sums. -/
theorem at8_v40 (c : Dev nD) : W8 m ρ c (Proc.devRef .tc main_v40)
    = edgeSumB (Cert.GcnSpec.proj
        (Cert.GcnSpec.aggRelu (edgeSumA (Cert.GcnSpec.proj (X m c) (Wt1 m c) (Dcol m c)) (Rv m c) (Cv m c)) (Dcol m c) (B1 m c))
        (Wt2 m c) (Dcol m c)) (Rv m c) (Cv m c) := by
  have h : W8 m ρ c (Proc.devRef .tc main_v40)
      = edgeSumB (W7 m ρ c (Proc.devRef .tc main_v30)) (W7 m ρ c (Proc.devRef .tc main_v3)) (W7 m ρ c (Proc.devRef .tc main_v6)) := by
    dsimp only [W8, hostOps3]
    after_results
    rfl
  rw [h, at7_v30, at7_v3, at7_v6]

/-- THE RESULT BUFFER at the last boundary. -/
theorem at9_v41 (c : Dev nD) : W9 m ρ c (Proc.devRef .tc main_v41) = result m c := by
  refine (W9_arr m ρ c 3).trans ((Cert.KernelIdeal.Regions.final_agg2 (V8 m ρ) c).trans ?_)
  show Cert.GcnSpec.agg (W8 m ρ c (Proc.devRef .tc main_v40)) (W8 m ρ c (Proc.devRef .tc main_v15))
    (W8 m ρ c (Proc.devRef .tc main_v17)) = _
  rw [at8_v40, at8_v15, at8_v17]
  rfl

end Cert.KernelIdeal.Fold

end
-- ==== Proof.LibScaledSegments.lean ====
/-
  A reusable general lemma: a symmetric normalisation of a segment sum, applied per summand or per segment, on the extended
  reals.

  A graph convolution normalised by node degrees weights the contribution of an edge e that ends at node n by
  s(e) · 1 · d(n), where s(e) is the factor of the edge's source and d(n) the factor of its destination. The destination's
  factor is the same for every edge of the segment, so it may instead multiply the finished segment sum:
      (∑_{e ends at n} a(e) · s(e)) · d(n) = ∑_{e ends at n} a(e) · (s(e) · 1 · d(n)).
  On the extended reals a factor moves across a finite sum only when it is nonnegative and finite (multiplying +∞ + −∞ = −∞
  by a negative number turns it into +∞, while the summands' products add to −∞); the summands a(e) · s(e) themselves may
  be anything. The factor of a node is such a number whatever its degree: it is the reciprocal square root of the degree
  where the degree is positive — a positive real, or 0 at degree +∞ — and 0 elsewhere.
-/
import Idealize.ShloMosaic.PureOps.Ideal

noncomputable section

open scoped BigOperators

namespace Cert.ScaledSegments

open Idealize.ShloMosaic

/-- A nonnegative finite factor moves into a finite sum of extended reals. -/
theorem sum_mul_of_nonneg_of_ne_top {ι : Type} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- The degree's factor — the reciprocal square root where the degree is positive, zero elsewhere — is a nonnegative
    real at every extended real degree: a positive real degree gives a positive real, the degree +∞ gives 0. -/
theorem select_rsqrt_eq_coe (d : EReal) :
    ∃ r : ℝ, 0 ≤ r ∧ Scalar.select (Ideal.cmp .ogt d 0) (Ideal.rsqrt d) (0 : EReal) = (r : EReal) := by
  induction d using EReal.rec with
  | bot => exact ⟨0, le_rfl, by simp [Ideal.cmp, Scalar.select]⟩
  | top => exact ⟨0, le_rfl, by simp [Ideal.cmp, Scalar.select]⟩
  | coe x =>
    by_cases hx : 0 < x
    · refine ⟨(Real.sqrt x)⁻¹, inv_nonneg.mpr (Real.sqrt_nonneg x), ?_⟩
      have h1 : Ideal.cmp .ogt (x : EReal) 0 = 1 := by
        simp [Ideal.cmp, hx]
      rw [h1, Ideal.rsqrt_coe, if_neg (not_lt.mpr hx.le), if_neg hx.ne']
      simp [Scalar.select]
    · refine ⟨0, le_rfl, ?_⟩
      have h0 : Ideal.cmp .ogt (x : EReal) 0 = 0 := by
        simp [Ideal.cmp, hx]
      rw [h0]
      simp [Scalar.select]

/-- So it is nonnegative and not +∞. -/
theorem select_rsqrt_nonneg_ne_top (d : EReal) :
    0 ≤ Scalar.select (Ideal.cmp .ogt d 0) (Ideal.rsqrt d) (0 : EReal)
      ∧ Scalar.select (Ideal.cmp .ogt d 0) (Ideal.rsqrt d) (0 : EReal) ≠ ⊤ := by
  obtain ⟨r, hr, e⟩ := select_rsqrt_eq_coe d
  rw [e]
  exact ⟨by exact_mod_cast hr, EReal.coe_ne_top r⟩

/-- THE LAW: the destination's factor, applied to the finished segment sum, equals it applied inside every summand
    (as `s · 1 · d`), the sum starting from zero on both sides. `tgt e` says that summand e belongs to the segment. -/
theorem segment_scale {ι : Type} [Fintype ι] (tgt : ι → Prop) [DecidablePred tgt] (a s nrm : ι → EReal) {d : EReal}
    (hd : 0 ≤ d) (hd' : d ≠ ⊤) (hn : ∀ e, tgt e → nrm e = s e * 1 * d) :
    (0 + ∑ e, if tgt e then a e * s e else 0) * d = 0 + ∑ e, if tgt e then a e * nrm e else 0 := by
  rw [zero_add, zero_add, sum_mul_of_nonneg_of_ne_top _ _ hd hd']
  refine Finset.sum_congr rfl fun e _ => ?_
  by_cases h : tgt e
  · rw [if_pos h, if_pos h, hn e h, mul_one, mul_assoc]
  · rw [if_neg h, if_neg h, zero_mul]

end Cert.ScaledSegments

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibSegmentLayer.lean ====
/-
  A reusable general lemma: one entry of a degree-normalised graph-convolution layer, aggregated after scaling or scaled
  edge by edge — the host's gather and accumulating scatter on both sides, on the extended reals.

  The source rows of the edges are gathered from a projected feature matrix and summed into the row of each edge's
  destination. One program scales row p of the projection by the factor d(p) before the gather and row n of the sum by
  d(n) afterwards; the other gathers the unscaled projection and multiplies the row of edge e by d(source e) · 1 ·
  d(destination e) before the sum. Entry (n, c) of the two results is the same extended real: the gathers read the same
  clamped rows, an edge's summand lands in row n exactly when its destination index, read signed, is n — which is then
  a valid nonnegative row number, so the index wrap leaves it and the gathered destination factor is d(n) —, and a
  nonnegative finite factor moves across the segment's sum.
-/
import Idealize.ShloMosaic.Lib.ValueIdx
import Idealize.ShloMosaic.PureOps.Ideal
import proofs.«171091_j3650722202372_2_alg».proof.Proof.LibScaledSegments
import proofs.«171091_j3650722202372_2_alg».proof.Proof.LibScatterRows
import proofs.«171091_j3650722202372_2_alg».proof.Proof.LibGatherRows
import proofs.«171091_j3650722202372_2_alg».proof.Proof.LibVecIndex
import proofs.«171091_j3650722202372_2_alg».proof.Proof.GcnSpec

noncomputable section

open scoped BigOperators

namespace Cert.SegmentLayer

open Idealize.ShloMosaic Idealize.ShloMosaic.ValueIdx

variable {N R C K w : Nat}

/-- Entry (n, c) of the layer's edge sum, scaled afterwards by node n's factor, equals the edge sum of the rows scaled
    edge by edge. `dv` is the vector of node factors and `D` the same as a column; `rowI` the edges' source indices,
    `colI` their destination indices, `colW` the destination indices after the index wrap; `Mx` the unscaled projection. -/
theorem layer_entry (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (dS : ScatterDims ⟨2, ![N, C]⟩ ⟨2, ![R, 1]⟩ ⟨2, ![R, C]⟩) (hdS : dS = ScatterRows.rowDims N R C wfS)
    (dG : GatherDims ⟨2, ![N, C]⟩ ⟨2, ![R, 1]⟩ ⟨2, ![R, C]⟩) (hdG : dG = GatherRows.rowDims N R C wfG)
    (dV : GatherDims ⟨1, ![N]⟩ ⟨2, ![R, 1]⟩ ⟨1, ![R]⟩) (hdV : dV = GatherVec.vecDims N R wfV)
    (A : (⟨2, ![N, K]⟩ : Shape).Idx → EReal) (W : (⟨2, ![K, C]⟩ : Shape).Idx → EReal)
    (dv : FVec Ideal ⟨1, ![N]⟩ .f32) (hdv : ∀ n : Fin N, 0 ≤ dv (ix1 n) ∧ dv (ix1 n) ≠ ⊤)
    (D : (⟨2, ![N, 1]⟩ : Shape).Idx → EReal) (hD : ∀ n : Fin N, D (ix2 n (0 : Fin 1)) = dv (ix1 n))
    (Mx : FVec Ideal ⟨2, ![N, C]⟩ .f32)
    (hM : ∀ (p : Fin N) (c : Fin C), Mx (ix2 p c) = ∑ k : Fin K, A (ix2 p k) * W (ix2 k c))
    (rowI colI colW : IVec ⟨2, ![R, 1]⟩ w)
    (hcw : ∀ (e : Fin R) (n : Fin N), (colI (ix2 e (0 : Fin 1))).toInt = (n.val : Int) →
      colW (ix2 e (0 : Fin 1)) = colI (ix2 e (0 : Fin 1)))
    (one : FVec Ideal ⟨1, ![R]⟩ .f32) (hone : ∀ e : Fin R, one (ix1 e) = 1)
    (Z : FVec Ideal ⟨2, ![N, C]⟩ .f32) (hZ : ∀ i, Z i = 0)
    (nrmCol : FVec Ideal ⟨2, ![R, C]⟩ .f32)
    (hnrm : ∀ (e : Fin R) (c : Fin C), nrmCol (ix2 e c)
      = (Host.gather dV dv rowI (ix1 e) * one (ix1 e)) * Host.gather dV dv colW (ix1 e))
    (n : Fin N) (c : Fin C) :
    Host.scatterAdd dS Z colI (Host.gather dG (Cert.GcnSpec.proj A W D : FVec Ideal ⟨2, ![N, C]⟩ .f32) rowI) (ix2 n c)
        * D (ix2 n (0 : Fin 1))
      = Host.scatterAdd dS Z colI (mulf (Host.gather dG Mx rowI) nrmCol) (ix2 n c) := by
  subst hdS hdG hdV
  rw [ScatterRows.host_scatterAdd_rows_apply wfS _ rfl, ScatterRows.host_scatterAdd_rows_apply wfS _ rfl, hZ]
  have hd := hdv n
  rw [hD n]
  have h1 : (0 + ∑ e : Fin R, if (colI (ix2 e (0 : Fin 1))).toInt = (n.val : Int) then
        Host.gather (GatherRows.rowDims N R C wfG) (Cert.GcnSpec.proj A W D : FVec Ideal ⟨2, ![N, C]⟩ .f32) rowI (ix2 e c) else 0)
      = 0 + ∑ e : Fin R, if (colI (ix2 e (0 : Fin 1))).toInt = (n.val : Int) then
        (∑ k : Fin K, A (ix2 ⟨min (rowI (ix2 e (0 : Fin 1))).toInt.toNat (N - 1), by omega⟩ k) * W (ix2 k c))
          * dv (ix1 ⟨min (rowI (ix2 e (0 : Fin 1))).toInt.toNat (N - 1), by omega⟩) else 0 := by
    refine congrArg (0 + ·) (Finset.sum_congr rfl fun e _ => ?_)
    by_cases he : (colI (ix2 e (0 : Fin 1))).toInt = (n.val : Int)
    · rw [if_pos he, if_pos he, GatherRows.gather_rows_apply hN wfG, Cert.GcnSpec.proj_apply]
      unfold Cert.GcnSpec.projAt
      rw [hD]
    · rw [if_neg he, if_neg he]
  have h2 : (0 + ∑ e : Fin R, if (colI (ix2 e (0 : Fin 1))).toInt = (n.val : Int) then
        mulf (Host.gather (GatherRows.rowDims N R C wfG) Mx rowI) nrmCol (ix2 e c) else 0)
      = 0 + ∑ e : Fin R, if (colI (ix2 e (0 : Fin 1))).toInt = (n.val : Int) then
        (∑ k : Fin K, A (ix2 ⟨min (rowI (ix2 e (0 : Fin 1))).toInt.toNat (N - 1), by omega⟩ k) * W (ix2 k c))
          * nrmCol (ix2 e c) else 0 := by
    refine congrArg (0 + ·) (Finset.sum_congr rfl fun e _ => ?_)
    by_cases he : (colI (ix2 e (0 : Fin 1))).toInt = (n.val : Int)
    · rw [if_pos he, if_pos he, mulf_apply, GatherRows.gather_rows_apply hN wfG, hM]
    · rw [if_neg he, if_neg he]
  rw [h1, h2]
  refine Cert.ScaledSegments.segment_scale
    (tgt := fun e : Fin R => (colI (ix2 e (0 : Fin 1))).toInt = (n.val : Int))
    (a := fun e => ∑ k : Fin K, A (ix2 ⟨min (rowI (ix2 e (0 : Fin 1))).toInt.toNat (N - 1), by omega⟩ k) * W (ix2 k c))
    (s := fun e => dv (ix1 ⟨min (rowI (ix2 e (0 : Fin 1))).toInt.toNat (N - 1), by omega⟩))
    (nrm := fun e => nrmCol (ix2 e c)) hd.1 hd.2 ?_
  intro e he
  show nrmCol (ix2 e c) = _
  rw [hnrm, GatherVec.gather_vec_apply hN wfV, GatherVec.gather_vec_apply hN wfV, hone]
  refine congrArg (fun z => dv (ix1 ⟨min (rowI (ix2 e (0 : Fin 1))).toInt.toNat (N - 1), by omega⟩) * 1 * dv z) ?_
  refine congrArg ix1 (Fin.ext ?_)
  show min (colW (ix2 e (0 : Fin 1))).toInt.toNat (N - 1) = n.val
  rw [hcw e n he]
  have := n.isLt
  omega

end Cert.SegmentLayer

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.BridgeFacts.lean ====
/-
  Small facts about the stages of the reference program, and the kernel's edge sums spelt with the reference's names.

  The scatters start from zeros and the edge weights are ones; a node's factor is a nonnegative real; the destination
  indices as a column, raw and wrapped, agree wherever the raw index is a row number; the three wrapped source-index
  columns are one array; an edge's normalisation is factor(source) · 1 · factor(destination); the two dense products are
  sums over the contracted coordinate. The kernel's gather-then-scatter of a matrix of rows is the reference's gather and
  scatter at the same index columns.
-/
import proofs.«171091_j3650722202372_2_alg».proof.Proof.RefRead
import proofs.«171091_j3650722202372_2_alg».proof.Proof.KernelFold
import proofs.«171091_j3650722202372_2_alg».proof.Proof.LibSegmentLayer
import proofs.«171091_j3650722202372_2_alg».proof.Proof.LibScaledSegments
import proofs.«171091_j3650722202372_2_alg».proof.Proof.LibJoinIota
import proofs.«171091_j3650722202372_2_alg».proof.Proof.LibColumns
import Idealize.ShloMosaic.Lib.IdealHost
import Idealize.ShloMosaic.Lib.ValueLayout
import Idealize.ShloMosaic.PureOps.Ideal.Laws

set_option maxRecDepth 16384

noncomputable section

open scoped BigOperators

namespace Cert.Bridge

open Cert.ReferenceIdeal Cert.ReferenceIdeal.Gen Cert.ReferenceIdeal.ReadP Idealize.ShloMosaic Idealize.ShloMosaic.ValueIdx

variable (X : (⟨S100000x128, .f32⟩ : BufTy).Contents (Elt Ideal)) (E : (⟨S2x1600000, .i32⟩ : BufTy).Contents (Elt Ideal))
  (W1 : (⟨S128x128, .f32⟩ : BufTy).Contents (Elt Ideal)) (b1 : (⟨S128, .f32⟩ : BufTy).Contents (Elt Ideal))
  (W2 : (⟨S128x64, .f32⟩ : BufTy).Contents (Elt Ideal)) (b2 : (⟨S64, .f32⟩ : BufTy).Contents (Elt Ideal))

/-! ## Small facts about the reference's stages -/

/-- The two scatters start from arrays of zeros. -/
theorem zero42 (i : S100000x128.Idx) : val_main_v42 (F := Ideal) i = 0 := by
  rw [val_main_v42_apply, val_main_cst_8_apply]
  exact Ideal.ofBits_zero_f32
theorem zero60 (i : S100000x64.Idx) : val_main_v60 (F := Ideal) i = 0 := by
  rw [val_main_v60_apply, val_main_cst_11_apply]
  exact Ideal.ofBits_zero_f32

/-- The edge weights are all one. -/
theorem one7 (e : Fin 1700000) : val_main_v7 (F := Ideal) (ix1 e) = 1 := by
  rw [val_main_v7_apply, val_main_cst_apply]
  exact Ideal.ofBits_one_f32

/-- A node's factor is a nonnegative real: the reciprocal square root of its degree where that is positive, else zero. -/
theorem factor_ok (n : Fin 100000) :
    0 ≤ val_main_v14 (F := Ideal) E (ix1 n) ∧ val_main_v14 (F := Ideal) E (ix1 n) ≠ ⊤ := by
  have e : val_main_v14 (F := Ideal) E (ix1 n)
      = Scalar.select (Ideal.cmp .ogt (val_main_v10 (F := Ideal) E (ix1 n)) 0) (Ideal.rsqrt (val_main_v10 (F := Ideal) E (ix1 n))) (0 : EReal) := by
    rw [val_main_v14_apply, val_main_v12_apply, val_main_v13_apply, val_main_call0_v1_apply, val_main_call0_v0_apply,
      val_main_cst_2_apply, val_main_v11_apply, val_main_cst_1_apply]
    generalize val_main_v10 (F := Ideal) E (ix1 n) = d
    show Scalar.select (Ideal.cmp .ogt d (Ideal.ofBits .f32 0x00000000#32)) (Ideal.rsqrt d) (Ideal.ofBits .f32 0x00000000#32) = _
    rw [Ideal.ofBits_zero_f32]
  rw [e]
  exact Cert.ScaledSegments.select_rsqrt_nonneg_ne_top _

/-- The destination indices as a column read at (e, 0), raw and after the index wrap. -/
theorem col43 (e : Fin 1700000) : val_main_v43 (F := Ideal) E (ix2 e (0 : Fin 1)) = val_main_v6 (F := Ideal) E (ix1 e) := by
  unfold val_main_v43
  exact Idealize.ShloMosaic.JoinIota.broadcast_vec_column_apply _ _ e
theorem col61 (e : Fin 1700000) : val_main_v61 (F := Ideal) E (ix2 e (0 : Fin 1)) = val_main_v6 (F := Ideal) E (ix1 e) := by
  unfold val_main_v61
  exact Idealize.ShloMosaic.JoinIota.broadcast_vec_column_apply _ _ e
theorem col28 (e : Fin 1700000) : val_main_v28 (F := Ideal) E (ix2 e (0 : Fin 1)) = val_main_v27 (F := Ideal) E (ix1 e) := by
  unfold val_main_v28
  exact Idealize.ShloMosaic.JoinIota.broadcast_vec_column_apply _ _ e

/-- Where a destination index is a row number, the index wrap keeps it. -/
theorem wrap_kept (e : Fin 1700000) (n : Fin 100000) (h : (val_main_v6 (F := Ideal) E (ix1 e)).toInt = (n.val : Int)) :
    val_main_v27 (F := Ideal) E (ix1 e) = val_main_v6 (F := Ideal) E (ix1 e) := by
  unfold val_main_v27 val_main_v24 val_main_v26 val_main_v23 val_main_v25 val_main_c_4 val_main_c_5
  exact Idealize.ShloMosaic.JoinIota.wrap_index_of_nonneg 100000#32 bcast_S_S1700000 (val_main_v6 (F := Ideal) E) (ix1 e)
    (by rw [h]; omega)
theorem wrap_kept43 (e : Fin 1700000) (n : Fin 100000)
    (h : (val_main_v43 (F := Ideal) E (ix2 e (0 : Fin 1))).toInt = (n.val : Int)) :
    val_main_v28 (F := Ideal) E (ix2 e (0 : Fin 1)) = val_main_v43 (F := Ideal) E (ix2 e (0 : Fin 1)) := by
  rw [col43] at h
  rw [col28, col43, wrap_kept E e n h]
theorem wrap_kept61 (e : Fin 1700000) (n : Fin 100000)
    (h : (val_main_v61 (F := Ideal) E (ix2 e (0 : Fin 1))).toInt = (n.val : Int)) :
    val_main_v28 (F := Ideal) E (ix2 e (0 : Fin 1)) = val_main_v61 (F := Ideal) E (ix2 e (0 : Fin 1)) := by
  rw [col61] at h
  rw [col28, col61, wrap_kept E e n h]

/-- The three source-index columns are one array (the same wrap of the same vector). -/
theorem rows37 : val_main_v20 (F := Ideal) E = val_main_v37 (F := Ideal) E := rfl
theorem rows55 : val_main_v20 (F := Ideal) E = val_main_v55 (F := Ideal) E := rfl

/-- An edge's normalisation: factor(source) · 1 · factor(destination). -/
theorem norm_edge (e : Fin 1700000) : val_main_v30 (F := Ideal) E (ix1 e)
    = (Host.gather gather_S100000_S1700000x1_S1700000_n_0_n_n_0_1_1 (val_main_v14 (F := Ideal) E) (val_main_v20 (F := Ideal) E) (ix1 e)
        * val_main_v7 (F := Ideal) (ix1 e))
      * Host.gather gather_S100000_S1700000x1_S1700000_n_0_n_n_0_1_1 (val_main_v14 (F := Ideal) E) (val_main_v28 (F := Ideal) E) (ix1 e) := by
  rw [val_main_v30_apply, val_main_v22_apply, Ideal.mulf_def, Ideal.mulf_def]
  unfold val_main_v21 val_main_v29
  rfl
theorem norm40 (e : Fin 1700000) (c : Fin 128) : val_main_v40 (F := Ideal) E (ix2 e c)
    = (Host.gather gather_S100000_S1700000x1_S1700000_n_0_n_n_0_1_1 (val_main_v14 (F := Ideal) E) (val_main_v37 (F := Ideal) E) (ix1 e)
        * val_main_v7 (F := Ideal) (ix1 e))
      * Host.gather gather_S100000_S1700000x1_S1700000_n_0_n_n_0_1_1 (val_main_v14 (F := Ideal) E) (val_main_v28 (F := Ideal) E) (ix1 e) := by
  have hi : idx_main_v39 (idx_main_v40 (ix2 e c)) = ix1 e := funext fun a => Fin.ext (by match a with | ⟨0, _⟩ => rfl)
  rw [val_main_v40_apply, val_main_v39_apply, ← rows37, hi]
  exact norm_edge E e
theorem norm58 (e : Fin 1700000) (c : Fin 64) : val_main_v58 (F := Ideal) E (ix2 e c)
    = (Host.gather gather_S100000_S1700000x1_S1700000_n_0_n_n_0_1_1 (val_main_v14 (F := Ideal) E) (val_main_v55 (F := Ideal) E) (ix1 e)
        * val_main_v7 (F := Ideal) (ix1 e))
      * Host.gather gather_S100000_S1700000x1_S1700000_n_0_n_n_0_1_1 (val_main_v14 (F := Ideal) E) (val_main_v28 (F := Ideal) E) (ix1 e) := by
  have hi : idx_main_v57 (idx_main_v58 (ix2 e c)) = ix1 e := funext fun a => Fin.ext (by match a with | ⟨0, _⟩ => rfl)
  rw [val_main_v58_apply, val_main_v57_apply, ← rows55, hi]
  exact norm_edge E e

/-- The reference's two products at an entry, as sums over the contracted coordinate. -/
theorem dot31 (p : Fin 100000) (c : Fin 128) :
    val_main_v31 (F := Ideal) X W1 (ix2 p c) = ∑ k : Fin 128, X (ix2 p k) * W1 (ix2 k c) := by
  rw [val_main_v31_apply]
  refine Finset.sum_congr rfl fun k _ => ?_
  have el : lidx_main_v31 (ix2 p c) k = ix2 p k := funext fun a => Fin.ext (by match a with | ⟨0, _⟩ => rfl | ⟨1, _⟩ => rfl)
  have er : ridx_main_v31 (ix2 p c) k = ix2 k c := funext fun a => Fin.ext (by match a with | ⟨0, _⟩ => rfl | ⟨1, _⟩ => rfl)
  rw [el, er]
theorem dot49 (p : Fin 100000) (c : Fin 64) :
    val_main_v49 (F := Ideal) X E W1 b1 W2 (ix2 p c)
      = ∑ k : Fin 128, val_main_v48 (F := Ideal) X E W1 b1 (ix2 p k) * W2 (ix2 k c) := by
  rw [val_main_v49_apply]
  refine Finset.sum_congr rfl fun k _ => ?_
  have el : lidx_main_v49 (ix2 p c) k = ix2 p k := funext fun a => Fin.ext (by match a with | ⟨0, _⟩ => rfl | ⟨1, _⟩ => rfl)
  have er : ridx_main_v49 (ix2 p c) k = ix2 k c := funext fun a => Fin.ext (by match a with | ⟨0, _⟩ => rfl | ⟨1, _⟩ => rfl)
  rw [el, er]

/-! ## The kernel's edge sums, and the reference's, as one scatter of one gather -/

/-- The kernel's first edge sum uses the reference's zeros, destination column and wrapped source column. -/
theorem edgeSumA_eq (P : FVec Ideal S100000x128 .f32) :
    Cert.KernelIdeal.Fold.edgeSumA P (val_main_v3 (F := Ideal) E) (val_main_v6 (F := Ideal) E)
      = Host.scatterAdd scatter_S100000x128_S1700000x1_S1700000x128_1_0_0_1 (val_main_v42 (F := Ideal)) (val_main_v43 (F := Ideal) E)
          (Host.gather gather_S100000x128_S1700000x1_S1700000x128_1_0_n_n_0_1_1128 P (val_main_v37 (F := Ideal) E)) := rfl
/-- The same for the second edge sum. -/
theorem edgeSumB_eq (P : FVec Ideal S100000x64 .f32) :
    Cert.KernelIdeal.Fold.edgeSumB P (val_main_v3 (F := Ideal) E) (val_main_v6 (F := Ideal) E)
      = Host.scatterAdd scatter_S100000x64_S1700000x1_S1700000x64_1_0_0_1 (val_main_v60 (F := Ideal)) (val_main_v61 (F := Ideal) E)
          (Host.gather gather_S100000x64_S1700000x1_S1700000x64_1_0_n_n_0_1_164 P (val_main_v55 (F := Ideal) E)) := rfl
/-- The reference's two edge sums, opened to the scatter of the normalised gathered rows. -/
theorem v44_eq : val_main_v44 (F := Ideal) X E W1
    = Host.scatterAdd (F := Ideal) (φ := .f32) scatter_S100000x128_S1700000x1_S1700000x128_1_0_0_1 (val_main_v42 (F := Ideal)) (val_main_v43 (F := Ideal) E)
        (mulf (F := Ideal) (φ := .f32) (Host.gather gather_S100000x128_S1700000x1_S1700000x128_1_0_n_n_0_1_1128 (val_main_v31 (F := Ideal) X W1) (val_main_v37 (F := Ideal) E))
          (val_main_v40 (F := Ideal) E)) := rfl
theorem v62_eq : val_main_v62 (F := Ideal) X E W1 b1 W2
    = Host.scatterAdd (F := Ideal) (φ := .f32) scatter_S100000x64_S1700000x1_S1700000x64_1_0_0_1 (val_main_v60 (F := Ideal)) (val_main_v61 (F := Ideal) E)
        (mulf (F := Ideal) (φ := .f32) (Host.gather gather_S100000x64_S1700000x1_S1700000x64_1_0_n_n_0_1_164 (val_main_v49 (F := Ideal) X E W1 b1 W2) (val_main_v55 (F := Ideal) E))
          (val_main_v58 (F := Ideal) E)) := rfl

end Cert.Bridge

end
-- ==== Proof.Bridge.lean ====
/-
  The kernel's result and the reference's are one function of the arguments.

  Both programs compute the edges' index vectors and the node factors by the same operations. Per layer the kernel scales
  the projected rows by their own node's factor, sums them over the edges into each destination, and scales the sum by
  the destination's factor; the reference multiplies every gathered row by factor(source) · 1 · factor(destination) and
  then sums. Entry by entry the two agree: the factor is a nonnegative real whatever the degree, so it moves across the
  segment's sum, and an edge's row reaches node n only when its destination index is the valid row number n, which the
  index wrap then leaves alone. The bias is the same number on both sides, read through two different re-layings of the
  bias vector, and the rectifier is a maximum with zero on both sides. The second layer is the first with the first
  layer's (equal) outputs in place of the features.
-/
import proofs.«171091_j3650722202372_2_alg».proof.Proof.BridgeFacts

set_option maxRecDepth 16384

noncomputable section

open scoped BigOperators

namespace Cert.Bridge

open Cert.ReferenceIdeal Cert.ReferenceIdeal.Gen Cert.ReferenceIdeal.ReadP Idealize.ShloMosaic Idealize.ShloMosaic.ValueIdx

variable (X : (⟨S100000x128, .f32⟩ : BufTy).Contents (Elt Ideal)) (E : (⟨S2x1600000, .i32⟩ : BufTy).Contents (Elt Ideal))
  (W1 : (⟨S128x128, .f32⟩ : BufTy).Contents (Elt Ideal)) (b1 : (⟨S128, .f32⟩ : BufTy).Contents (Elt Ideal))
  (W2 : (⟨S128x64, .f32⟩ : BufTy).Contents (Elt Ideal)) (b2 : (⟨S64, .f32⟩ : BufTy).Contents (Elt Ideal))

/-! ## The two layers -/

/-- The shape of the node factors as a column (the reference never lays them out that way). -/
abbrev S100000x1 : Shape := ⟨2, ![100000, 1]⟩

variable (hD : S100000.ShapeCasts S100000x1) (h1 : S128.ShapeCasts S1x128) (h2 : S64.ShapeCasts S1x64)

/-- THE FIRST LAYER: the kernel's scaled-then-summed-then-scaled rows, biased and rectified, are the reference's. -/
theorem layer1 :
    Cert.GcnSpec.aggRelu
      (Cert.KernelIdeal.Fold.edgeSumA (Cert.GcnSpec.proj X W1 (shapeCast S100000x1 (val_main_v14 (F := Ideal) E) hD))
        (val_main_v3 (F := Ideal) E) (val_main_v6 (F := Ideal) E))
      (shapeCast S100000x1 (val_main_v14 (F := Ideal) E) hD) (shapeCast S1x128 b1 h1)
    = val_main_v48 (F := Ideal) X E W1 b1 := by
  funext i
  obtain ⟨n, c, rfl⟩ : ∃ (n : Fin 100000) (c : Fin 128), i = ix2 n c := ⟨i 0, i 1, eq_ix2 i⟩
  rw [Cert.GcnSpec.aggRelu_apply]
  unfold Cert.GcnSpec.aggAt
  have key := Cert.SegmentLayer.layer_entry (N := 100000) (R := 1700000) (C := 128) (K := 128) (w := 32) (by decide)
    scatter_S100000x128_S1700000x1_S1700000x128_1_0_0_1.wf gather_S100000x128_S1700000x1_S1700000x128_1_0_n_n_0_1_1128.wf
    gather_S100000_S1700000x1_S1700000_n_0_n_n_0_1_1.wf
    scatter_S100000x128_S1700000x1_S1700000x128_1_0_0_1 rfl gather_S100000x128_S1700000x1_S1700000x128_1_0_n_n_0_1_1128 rfl
    gather_S100000_S1700000x1_S1700000_n_0_n_n_0_1_1 rfl
    X W1 (val_main_v14 (F := Ideal) E) (factor_ok E) (shapeCast S100000x1 (val_main_v14 (F := Ideal) E) hD)
    (fun n => Cert.LibColumns.shapeCast_a_a1_apply _ hD n 0)
    (val_main_v31 (F := Ideal) X W1) (dot31 X W1)
    (val_main_v37 (F := Ideal) E) (val_main_v43 (F := Ideal) E) (val_main_v28 (F := Ideal) E) (wrap_kept43 E)
    (val_main_v7 (F := Ideal)) one7 (val_main_v42 (F := Ideal)) zero42 (val_main_v40 (F := Ideal) E) (norm40 E) n c
  rw [edgeSumA_eq E, key, val_main_v48_apply, val_main_v47_apply, v44_eq X E W1, val_main_v46_apply, val_main_v45_apply, val_main_call1_v0_apply,
    val_main_call1_cst_apply, shapeCast_a_1a_apply b1 h1 (0 : Fin 1) c]
  have hi : idx_main_v45 (idx_main_v46 (ix2 n c)) = ix1 c := funext fun a => Fin.ext (by match a with | ⟨0, _⟩ => rfl)
  rw [hi]
  rw [Ideal.maximumf_def, Ideal.addf_def, Ideal.ofBits_def, Ideal.ofBits_zero_f32]

/-- THE SECOND LAYER over equal first layers. -/
theorem layer2 :
    Cert.GcnSpec.agg
      (Cert.KernelIdeal.Fold.edgeSumB (Cert.GcnSpec.proj (val_main_v48 (F := Ideal) X E W1 b1) W2 (shapeCast S100000x1 (val_main_v14 (F := Ideal) E) hD))
        (val_main_v3 (F := Ideal) E) (val_main_v6 (F := Ideal) E))
      (shapeCast S100000x1 (val_main_v14 (F := Ideal) E) hD) (shapeCast S1x64 b2 h2)
    = val_main_v65 (F := Ideal) X E W1 b1 W2 b2 := by
  funext i
  obtain ⟨n, c, rfl⟩ : ∃ (n : Fin 100000) (c : Fin 64), i = ix2 n c := ⟨i 0, i 1, eq_ix2 i⟩
  rw [Cert.GcnSpec.agg_apply]
  unfold Cert.GcnSpec.aggAt
  have key := Cert.SegmentLayer.layer_entry (N := 100000) (R := 1700000) (C := 64) (K := 128) (w := 32) (by decide)
    scatter_S100000x64_S1700000x1_S1700000x64_1_0_0_1.wf gather_S100000x64_S1700000x1_S1700000x64_1_0_n_n_0_1_164.wf
    gather_S100000_S1700000x1_S1700000_n_0_n_n_0_1_1.wf
    scatter_S100000x64_S1700000x1_S1700000x64_1_0_0_1 rfl gather_S100000x64_S1700000x1_S1700000x64_1_0_n_n_0_1_164 rfl
    gather_S100000_S1700000x1_S1700000_n_0_n_n_0_1_1 rfl
    (val_main_v48 (F := Ideal) X E W1 b1) W2 (val_main_v14 (F := Ideal) E) (factor_ok E)
    (shapeCast S100000x1 (val_main_v14 (F := Ideal) E) hD) (fun n => Cert.LibColumns.shapeCast_a_a1_apply _ hD n 0)
    (val_main_v49 (F := Ideal) X E W1 b1 W2) (dot49 X E W1 b1 W2)
    (val_main_v55 (F := Ideal) E) (val_main_v61 (F := Ideal) E) (val_main_v28 (F := Ideal) E) (wrap_kept61 E)
    (val_main_v7 (F := Ideal)) one7 (val_main_v60 (F := Ideal)) zero60 (val_main_v58 (F := Ideal) E) (norm58 E) n c
  rw [edgeSumB_eq E, key, val_main_v65_apply, v62_eq X E W1 b1 W2, val_main_v64_apply, val_main_v63_apply, shapeCast_a_1a_apply b2 h2 (0 : Fin 1) c]
  have hi : idx_main_v63 (idx_main_v64 (ix2 n c)) = ix1 c := funext fun a => Fin.ext (by match a with | ⟨0, _⟩ => rfl)
  rw [hi, Ideal.addf_def]

/-- BOTH LAYERS: the kernel's composed stages are the reference's result. -/
theorem result_eq :
    Cert.GcnSpec.agg
      (Cert.KernelIdeal.Fold.edgeSumB (Cert.GcnSpec.proj
        (Cert.GcnSpec.aggRelu
          (Cert.KernelIdeal.Fold.edgeSumA (Cert.GcnSpec.proj X W1 (shapeCast S100000x1 (val_main_v14 (F := Ideal) E) hD))
            (val_main_v3 (F := Ideal) E) (val_main_v6 (F := Ideal) E))
          (shapeCast S100000x1 (val_main_v14 (F := Ideal) E) hD) (shapeCast S1x128 b1 h1))
        W2 (shapeCast S100000x1 (val_main_v14 (F := Ideal) E) hD))
        (val_main_v3 (F := Ideal) E) (val_main_v6 (F := Ideal) E))
      (shapeCast S100000x1 (val_main_v14 (F := Ideal) E) hD) (shapeCast S1x64 b2 h2)
    = val_main_v65 (F := Ideal) X E W1 b1 W2 b2 := by
  rw [layer1 X E W1 b1 hD h1]
  exact layer2 X E W1 b1 W2 b2 hD h2

end Cert.Bridge

end
-- ==== Proof.lean ====
/- A two-layer graph convolution with symmetric degree normalisation, computed two ways, agrees on the extended reals.

   Both programs append a self-loop per node to the given edges, count each node's in-degree d, and form the node factor
   f = d^(-1/2) where d > 0 and 0 elsewhere. A layer sends features h to, at node n,
       Σ_{edges e ending at n} (h · w)[source e] · f(source e) · 1 · f(n)   +  bias,
   the first layer rectified. The reference multiplies each gathered row by the edge's whole coefficient before the
   accumulating scatter. The kernel instead scales row p of h · w by f(p) inside its projection region (a matrix product
   over row blocks of ten thousand nodes), lets the host gather and scatter the scaled rows, and scales row n of the sums
   by f(n) in its aggregation region, which also adds the bias (and rectifies). The two are equal entry by entry without any
   assumption on the inputs: a node factor is a nonnegative real whatever the degree, and such a factor moves across a finite
   sum of extended reals; a row reaches node n only through an edge whose destination index is the valid row number n,
   which the index wrap leaves unchanged, so the destination factor the reference gathers is f(n); changes of float format
   are the identity; and the bias vector is read through two re-layings of the same vector.

   The kernel's run is the fold of the buffer contents through its nine segments with the result buffer named; the
   reference's run is its host operations composed. Nothing of the ideal pass's ledger is left to restate (it is empty). -/
import proofs.«171091_j3650722202372_2_alg».proof.Defs
import proofs.«171091_j3650722202372_2_alg».proof.Proof.Gen.Kernel
import proofs.«171091_j3650722202372_2_alg».proof.Proof.Gen.Kernel.Skeleton
import proofs.«171091_j3650722202372_2_alg».proof.Proof.Gen.Kernel.Launch
import proofs.«171091_j3650722202372_2_alg».proof.Proof.Gen.Kernel.Points
import proofs.«171091_j3650722202372_2_alg».proof.Proof.Gen.Kernel.Frame
import proofs.«171091_j3650722202372_2_alg».proof.Proof.Gen.KernelIdeal
import proofs.«171091_j3650722202372_2_alg».proof.Proof.Gen.KernelIdeal.Skeleton
import proofs.«171091_j3650722202372_2_alg».proof.Proof.Gen.KernelIdeal.Launch
import proofs.«171091_j3650722202372_2_alg».proof.Proof.Gen.KernelIdeal.Points
import proofs.«171091_j3650722202372_2_alg».proof.Proof.Gen.KernelIdeal.Frame
import proofs.«171091_j3650722202372_2_alg».proof.Proof.Gen.ReferenceIdeal
import proofs.«171091_j3650722202372_2_alg».proof.Proof.Gen.Pre_finite_inputs
import proofs.«171091_j3650722202372_2_alg».proof.Proof.RefRun
import proofs.«171091_j3650722202372_2_alg».proof.Proof.RefRead
import proofs.«171091_j3650722202372_2_alg».proof.Proof.KernelRun
import proofs.«171091_j3650722202372_2_alg».proof.Proof.KernelFold
import proofs.«171091_j3650722202372_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel program read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the six arguments both programs end with the same result: the kernel's buffer holds the
    second layer over the first with the normalisation split around the edge sums, the reference's the same layers with the
    normalisation inside them — one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fold.result m c, ?_, ?_⟩
  · exact (θ_run Cert.KernelIdeal.defs _ _).mono
      (fun r h c => ⟨(h c).1.trans (Cert.KernelIdeal.Fold.at9_v41 m ρ c), (h c).2⟩)
      (Cert.KernelIdeal.Fold.run_values (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v65_eq]
    obtain ⟨e0, e1, e2, e3, e4, e5⟩ := hagree c
    rw [e0, e1, e2, e3, e4, e5]
    show _ = Cert.KernelIdeal.Fold.result m c
    unfold Cert.KernelIdeal.Fold.result
    exact (Cert.Bridge.result_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
